-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4096x512 : Shape := ⟨2, ![4096, 512]⟩
abbrev S512x512 : Shape := ⟨2, ![512, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S4096x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  main_v23

def fn {F : FTy → Type} [FloatOps F] (main_arg0 : FVec F S16384x512 .f32) (main_arg1 : FVec F S4096x512 .f32) (main_arg2 : FVec F S512x512 .f32) (main_arg3 : FVec F S512x512 .f32) (main_arg4 : FVec F S4096x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S16384x512 : Shape := ⟨2, ![16384, 512]⟩
abbrev S4096x512 : Shape := ⟨2, ![4096, 512]⟩
abbrev S512x512 : Shape := ⟨2, ![512, 512]⟩
abbrev S1024x512 : Shape := ⟨2, ![1024, 512]⟩
abbrev S1024 : Shape := ⟨1, ![1024]⟩
abbrev S1024x1 : Shape := ⟨2, ![1024, 1]⟩
abbrev S128x512 : Shape := ⟨2, ![128, 512]⟩
abbrev S128 : Shape := ⟨1, ![128]⟩
abbrev S128x1 : Shape := ⟨2, ![128, 1]⟩
abbrev S128x4096 : Shape := ⟨2, ![128, 4096]⟩

abbrev nBuf : Space → Nat
  | .hbm => 8
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S512x512, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S4096x512, .bf16⟩
  | .hbm, ⟨7, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .bf16⟩
  | .local _ .vmem, ⟨8, _⟩ => ⟨S1024x512, .bf16⟩
  | .local _ .vmem, ⟨9, _⟩ => ⟨S128x512, .f32⟩
  | .local _ .vmem, ⟨10, _⟩ => ⟨S128x512, .f32⟩
  | .local _ .vmem, ⟨11, _⟩ => ⟨S512x512, .f32⟩
  | .local _ .vmem, ⟨12, _⟩ => ⟨S4096x512, .f32⟩
  | .local _ .vmem, ⟨13, _⟩ => ⟨S4096x512, .bf16⟩
  | .local _ .vmem, ⟨14, _⟩ => ⟨S128x512, .f32⟩
  | .local _ .vmem, ⟨15, _⟩ => ⟨S128x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  reduces_S1024x512_S1024 : S1024x512.Reduces [1] S1024
  shapeCasts_S1024_S1024x1 : S1024.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  inb_S128x512_S128x512_0_0 : ∀ a, (![0, 0] : Fin 2 → Nat) a + S128x512.size a ≤ S128x512.size a
  h_S128x512 : 0 < S128x512.numel
  reduces_S128x512_S128 : S128x512.Reduces [1] S128
  shapeCasts_S128_S128x1 : S128.ShapeCasts S128x1
  broadcasts_S128x1_S128x512 : S128x1.Broadcasts S128x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S128x4096_S128 : S128x4096.Reduces [1] S128
  broadcasts_S128x1_S128x4096 : S128x1.Broadcasts S128x4096
  dot_S1024x512_S512x512_S1024x512_1_0_0_1_n_n_wf : DotDims.WF S1024x512 S512x512 S1024x512 [1] [0] [0] [1] [] []
  dot_S128x512_S512x512_S128x512_1_0_0_1_n_n_wf : DotDims.WF S128x512 S512x512 S128x512 [1] [0] [0] [1] [] []
  dot_S128x512_S4096x512_S128x4096_1_1_0_0_n_n_wf : DotDims.WF S128x512 S4096x512 S128x4096 [1] [1] [0] [0] [] []
  dot_S128x4096_S4096x512_S128x512_1_0_0_1_n_n_wf : DotDims.WF S128x4096 S4096x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .f32 = 32 ∨ (Rect.block (s := S4096x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .f32 = 32 ∨ (Rect.block (s := S4096x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x512.size a
  hwx0_4 : ∀ i : grid0.Coords, EltTy.bits .bf16 = 32 ∨ (Rect.block (s := S4096x512) S1024x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S16384x512.size a
  hwx1_0 : ∀ i : grid1.Coords, EltTy.bits .f32 = 32 ∨ (Rect.block (s := S16384x512) S128x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .f32 = 32 ∨ (Rect.block (s := S4096x512) S4096x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x512.size a
  hwx1_3 : ∀ i : grid1.Coords, EltTy.bits .bf16 = 32 ∨ (Rect.block (s := S4096x512) S4096x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x512.size a ≤ S16384x512.size a
  hwx1_4 : ∀ i : grid1.Coords, EltTy.bits .f32 = 32 ∨ (Rect.block (s := S16384x512) S128x512.size (cc1_transform_4 i) (hinb1_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf
def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S4096x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S128x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x512 : Shape := ⟨2, ![16384, 512]⟩
abbrev S4096x512 : Shape := ⟨2, ![4096, 512]⟩
abbrev S512x512 : Shape := ⟨2, ![512, 512]⟩
abbrev S_ : Shape := ⟨0, ![]⟩
abbrev S16384 : Shape := ⟨1, ![16384]⟩
abbrev S16384x1 : Shape := ⟨2, ![16384, 1]⟩
abbrev S4096 : Shape := ⟨1, ![4096]⟩
abbrev S4096x1 : Shape := ⟨2, ![4096, 1]⟩
abbrev S16384x4096 : Shape := ⟨2, ![16384, 4096]⟩

abbrev nBuf : Space → Nat
  | .hbm => 52
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S512x512, .f32⟩
  | .hbm, ⟨3, _⟩ => ⟨S512x512, .f32⟩
  | .hbm, ⟨4, _⟩ => ⟨S4096x512, .f32⟩
  | .hbm, ⟨5, _⟩ => ⟨S16384x512, .f32⟩
  | .hbm, ⟨6, _⟩ => ⟨S4096x512, .f32⟩
  | .hbm, ⟨7, _⟩ => ⟨S16384x512, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x512, .f32⟩
  | .hbm, ⟨16, _⟩ => ⟨S16384x512, .f32⟩
  | .hbm, ⟨17, _⟩ => ⟨S4096x512, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x512, .f32⟩
  | .hbm, ⟨26, _⟩ => ⟨S4096x512, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S_, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384x1, .f32⟩
  | .hbm, ⟨43, _⟩ => ⟨S16384x4096, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S16384x4096, .f32⟩
  | .hbm, ⟨50, _⟩ => ⟨S16384x4096, .f32⟩
  | .hbm, ⟨51, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  reducesTo_S4096x512_S4096_d1 : S4096x512.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S_S16384x4096 : S_.BroadcastsInDim S16384x4096 (![] : Fin 0 → Fin S16384x4096.rank)
  reducesTo_S16384x4096_S16384_d1 : S16384x4096.ReducesTo [1] S16384
  bcast_S_S16384 : S_.BroadcastsInDim S16384 (![] : Fin 0 → Fin S16384.rank)
  bcast_S16384x1_S16384x4096_0_1 : S16384x1.BroadcastsInDim S16384x4096 (![0, 1] : Fin 2 → Fin S16384x4096.rank)
  dot_S16384x512_S512x512_S16384x512_1_0_0_1_n_n_wf : DotDims.WF S16384x512 S512x512 S16384x512 [1] [0] [0] [1] [] []
  dot_S4096x512_S512x512_S4096x512_1_0_0_1_n_n_wf : DotDims.WF S4096x512 S512x512 S4096x512 [1] [0] [0] [1] [] []
  dot_S16384x512_S4096x512_S16384x4096_1_1_0_0_n_n_wf : DotDims.WF S16384x512 S4096x512 S16384x4096 [1] [1] [0] [0] [] []
  dot_S16384x4096_S4096x512_S16384x512_1_0_0_1_n_n_wf : DotDims.WF S16384x4096 S4096x512 S16384x512 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S16384x512_S4096x512_S16384x4096_1_1_0_0_n_n : DotDims S16384x512 S4096x512 S16384x4096 where
  lhsContracting := [1]
  rhsContracting := [1]
  lhsNonContracting := [0]
  rhsNonContracting := [0]
  lhsBatch := []
  rhsBatch := []
  wf := dot_S16384x512_S4096x512_S16384x4096_1_1_0_0_n_n_wf
def dot_S16384x4096_S4096x512_S16384x512_1_0_0_1_n_n : DotDims S16384x4096 S4096x512 S16384x512 where
  lhsContracting := [1]
  rhsContracting := [0]
  lhsNonContracting := [0]
  rhsNonContracting := [1]
  lhsBatch := []
  rhsBatch := []
  wf := dot_S16384x4096_S4096x512_S16384x512_1_0_0_1_n_n_wf

class Facts : Prop extends Facts₀ where

variable [Facts]
-- ==== Proof.LibRealSum.lean ====
/-
  Extended reals that are real numbers: closure facts, for any index types.

  `IsReal x` says the extended real `x` is the coercion of a real number (neither +∞ nor −∞).
  * The coercion from the reals commutes with finite sums (`coe_sum`).
  * Sums, products and finite sums of real extended reals are real (`IsReal.add`, `IsReal.mul`,
    `IsReal.sum`).
  * The fold of `max` from −∞ over real values is −∞ on the empty set and real on any other finite
    set (`fold_max_real`): a row maximum started at −∞ is a real number as soon as the row is not empty.
  These are what is needed to use distributivity, which the extended reals have only away from the
  infinities.  Imports Mathlib only.
-/
import Mathlib.Data.EReal.Operations
import Mathlib.Algebra.BigOperators.Group.Finset.Basic

namespace Cert.LibRealSum

/-- The coercion of reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An extended real that is the coercion of a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (t : Finset ι) (f : ι → EReal) (h : ∀ k, IsReal (f k)) : IsReal (∑ k ∈ t, f k) := by
  choose g hg using h
  exact ⟨∑ k ∈ t, g k, by rw [coe_sum]; exact Finset.sum_congr rfl fun k _ => hg k⟩

/-- The fold of `max` from −∞ over real values is −∞ on the empty set and real otherwise. -/
theorem fold_max_real {ι : Type*} (t : Finset ι) (f : ι → EReal) (hf : ∀ k, IsReal (f k)) :
    (t = ∅ ∧ t.fold max ⊥ f = ⊥) ∨ IsReal (t.fold max ⊥ f) := by
  classical
  induction t using Finset.induction_on with
  | empty => exact Or.inl ⟨rfl, Finset.fold_empty⟩
  | insert a t ha ih =>
    refine Or.inr ?_
    rw [Finset.fold_insert ha]
    obtain ⟨r, hr⟩ := hf a
    rcases ih with ⟨_, h0⟩ | ⟨M, hM⟩
    · rw [h0, hr]; exact ⟨r, max_eq_left bot_le⟩
    · rw [hM, hr]; exact ⟨max r M, (EReal.coe_strictMono.monotone.map_max).symm⟩

end Cert.LibRealSum
-- ==== Proof.Spec.lean ====
/-
  The function both programs compute, one query row at a time, on the extended reals.

  A query row x (D entries) is multiplied by W_q, scaled to unit length (its length floored at a small positive word),
  compared with every key row (each already a unit row) by an inner product, each similarity moved to the nearest
  multiple of the bin width (ties to even), the row of binned similarities turned into softmax weights
  (exp (s_a - max s) / Σ exp (s_a' - max s)), and the weights applied to the value rows.

  The reference writes the binned similarity as s + (binned s - s).  On the extended reals that is binned s as soon as s
  is a real number (`add_sub_cancel_real`), and s is real when the inputs are: an inner product of two rows that were
  each divided by a positive real length (`isReal_sims`).
-/
import Idealize.ShloMosaic.PureOps.Ideal
import Idealize.ShloMosaic.Lib.ValueIdx
import proofs.«152052_j82102594830987_2_alg».proof.Proof.LibRealSum

noncomputable section

open scoped BigOperators

namespace Cert.Attn

open Idealize.ShloMosaic Idealize.ShloMosaic.ValueIdx Cert.LibRealSum

/-- The floor of a row's length: the word 0x2B8CBCCC, about 1e-12. -/
def floorLen : EReal := Ideal.ofBits .f32 0x2B8CBCCC#32
/-- The bin's width: the word 0x3D4CCCCD, about 0.05. -/
def binW : EReal := Ideal.ofBits .f32 0x3D4CCCCD#32
/-- The word of -∞, where a row's maximum starts. -/
def negInf : EReal := Ideal.ofBits .f32 0xFF800000#32

variable {D H A : ℕ}

/-- A row times a matrix: entry h is Σ_d x_d · W(d, h). -/
def rowMat (xr : Fin D → EReal) (W : Fin D → Fin H → EReal) (h : Fin H) : EReal := ∑ d : Fin D, xr d * W d h

/-- A row's length, floored: max (√(Σ_h q_h²)) ε. -/
def len (q : Fin H → EReal) : EReal := max (Ideal.sqrt (∑ h : Fin H, q h * q h)) floorLen

/-- The row divided by its floored length. -/
def unit (q : Fin H → EReal) (h : Fin H) : EReal := Ideal.div (q h) (len q)

/-- The inner product of a row with key row a. -/
def sims (qn : Fin H → EReal) (K : Fin A → Fin H → EReal) (a : Fin A) : EReal := ∑ h : Fin H, qn h * K a h

/-- A similarity moved to the nearest multiple of the bin width, ties to even. -/
def binned (s : EReal) : EReal := Ideal.liftRound Ideal.roundHalfEven (Ideal.div s binW) * binW

/-- The greatest score of a row, from -∞. -/
def top (s : Fin A → EReal) : EReal := (Finset.univ : Finset (Fin A)).fold max negInf s
/-- exp (s_a - max s). -/
def ex (s : Fin A → EReal) (a : Fin A) : EReal := Ideal.exp (s a - top s)
/-- The softmax weight of entry a. -/
def weight (s : Fin A → EReal) (a : Fin A) : EReal := Ideal.div (ex s a) (∑ a' : Fin A, ex s a')

/-- The weights applied to the value rows: entry h of the output row. -/
def combine (s : Fin A → EReal) (V : Fin A → Fin H → EReal) (h : Fin H) : EReal := ∑ a : Fin A, weight s a * V a h

/-- One output row from a query row, W_q, the unit key rows and the value rows. -/
def attendRow (xr : Fin D → EReal) (Wq : Fin D → Fin H → EReal) (K : Fin A → Fin H → EReal) (V : Fin A → Fin H → EReal)
    (h : Fin H) : EReal :=
  combine (fun a => binned (sims (unit (rowMat xr Wq)) K a)) V h

/-! ## Arrays as rows -/

/-- Row p of a matrix given on index pairs. -/
def row {R C : ℕ} (X : (⟨2, ![R, C]⟩ : Shape).Idx → EReal) (p : Fin R) : Fin C → EReal := fun d => X (ix2 p d)

/-- A matrix given on index pairs, by its two coordinates. -/
def mat {R C : ℕ} (X : (⟨2, ![R, C]⟩ : Shape).Idx → EReal) : Fin R → Fin C → EReal := fun p d => X (ix2 p d)

/-- The unit key rows: row a of anchors · W_k, divided by its floored length. -/
def keyRows {A D H : ℕ} (anchors : (⟨2, ![A, D]⟩ : Shape).Idx → EReal) (Wk : (⟨2, ![D, H]⟩ : Shape).Idx → EReal) :
    Fin A → Fin H → EReal :=
  fun a => unit (rowMat (row anchors a) (mat Wk))

/-- The key rows as an array. -/
def keyArr {A D H : ℕ} (anchors : (⟨2, ![A, D]⟩ : Shape).Idx → EReal) (Wk : (⟨2, ![D, H]⟩ : Shape).Idx → EReal) :
    (⟨2, ![A, H]⟩ : Shape).Idx → EReal :=
  fun i => keyRows anchors Wk (i 0) (i 1)

/-- The second pass: the output array from the queries, W_q, an array of unit key rows and the value rows. -/
def attendArr {B D H A : ℕ} (x : (⟨2, ![B, D]⟩ : Shape).Idx → EReal) (Wq : (⟨2, ![D, H]⟩ : Shape).Idx → EReal)
    (K : (⟨2, ![A, H]⟩ : Shape).Idx → EReal) (V : (⟨2, ![A, H]⟩ : Shape).Idx → EReal) : (⟨2, ![B, H]⟩ : Shape).Idx → EReal :=
  fun i => attendRow (row x (i 0)) (mat Wq) (mat K) (mat V) (i 1)

/-- THE RESULT: the output array as one function of the five argument arrays. -/
def result {B D H A : ℕ} (x : (⟨2, ![B, D]⟩ : Shape).Idx → EReal) (anchors : (⟨2, ![A, D]⟩ : Shape).Idx → EReal)
    (Wq Wk : (⟨2, ![D, H]⟩ : Shape).Idx → EReal) (values : (⟨2, ![A, H]⟩ : Shape).Idx → EReal) :
    (⟨2, ![B, H]⟩ : Shape).Idx → EReal :=
  attendArr x Wq (keyArr anchors Wk) values

/-! ## The one law: s + (y - s) = y for a real s -/

/-- Adding back what was subtracted: for a real number s and ANY extended real y, s + (y - s) = y. -/
theorem add_sub_cancel_real {s : EReal} (hs : IsReal s) (y : EReal) : s + (y - s) = y := by
  obtain ⟨r, rfl⟩ := hs
  induction y using EReal.rec with
  | bot => simp
  | top => simp
  | coe t =>
    rw [← EReal.coe_sub, ← EReal.coe_add]
    exact congrArg _ (by ring)

/-! ## The three words -/

/-- The word of -∞ denotes the least extended real. -/
theorem negInf_eq : negInf = ⊥ := by simp [negInf, Ideal.ofBits, Ideal.ieee]

/-- The all-zero word denotes 0. -/
theorem zero_word : Ideal.ofBits .f32 0x00000000#32 = 0 := by simp [Ideal.ofBits, Ideal.ieee]

/-- The floor of a length is a positive real number: 9223372 · 2^(-63). -/
theorem floorLen_pos : ∃ ε : ℝ, 0 < ε ∧ floorLen = (ε : EReal) :=
  ⟨9223372 * (2 : ℝ) ^ (-63 : ℤ), by positivity, by simp [floorLen, Ideal.ofBits, Ideal.ieee, -EReal.coe_mul]⟩

/-! ## Reals stay real -/

theorem isReal_rowMat {xr : Fin D → EReal} {W : Fin D → Fin H → EReal} (hx : ∀ d, IsReal (xr d)) (hW : ∀ d h, IsReal (W d h))
    (h : Fin H) : IsReal (rowMat xr W h) :=
  IsReal.sum _ _ fun d => (hx d).mul (hW d h)

/-- The floored length of a real row is a POSITIVE real number, because the floor is one. -/
theorem len_pos_real {q : Fin H → EReal} (hq : ∀ h, IsReal (q h)) :
    ∃ l : ℝ, 0 < l ∧ len q = (l : EReal) := by
  obtain ⟨ε, hε, hfl⟩ := floorLen_pos
  obtain ⟨S, hS⟩ := IsReal.sum Finset.univ (fun h => q h * q h) fun h => (hq h).mul (hq h)
  unfold len
  rw [hS, hfl, Ideal.sqrt_coe]
  split
  · exact ⟨ε, hε, max_eq_right bot_le⟩
  · exact ⟨max (Real.sqrt S) ε, lt_max_of_lt_right hε, (EReal.coe_strictMono.monotone.map_max).symm⟩

/-- A real row divided by its floored length is a real row. -/
theorem isReal_unit {q : Fin H → EReal} (hq : ∀ h, IsReal (q h))
    (h : Fin H) : IsReal (unit q h) := by
  obtain ⟨l, hl, hlen⟩ := len_pos_real hq
  obtain ⟨a, ha⟩ := hq h
  unfold unit
  rw [hlen, ha, Ideal.div_coe (ne_of_gt hl)]
  exact ⟨a * (1 / l), (EReal.coe_mul _ _).symm⟩

/-- The inner product of two real rows is real. -/
theorem isReal_sims {qn : Fin H → EReal} {K : Fin A → Fin H → EReal} (hq : ∀ h, IsReal (qn h)) (hK : ∀ a h, IsReal (K a h))
    (a : Fin A) : IsReal (sims qn K a) :=
  IsReal.sum _ _ fun h => (hq h).mul (hK a h)

end Cert.Attn

end
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibMinFold.lean ====
/-
  Minimum-reductions and two keepdims layout forms, read at an index, for any extents.

  At the exact (extended-real) reading of floats, a `vector.multi_reduction <minimumf>` over ONE axis is, at each result
  index, the fold of `min` from the accumulator's value over that axis's coordinates; for an [R, C] matrix this is the
  fold down a column (axis 0) or along a row (axis 1) of the entries named by their two coordinates. The host's
  one-operand reduce with a minimum body over one axis of a rank-3 array reads the same way. Also: a vector [a] laid
  as a column [a, 1], and a column [a, 1] repeated along the lanes to [a, b], read at an entry.
-/
import Idealize.ShloMosaic.PureOps.Ideal.Laws
import Idealize.ShloMosaic.Lib.ValueIdx
import Idealize.ShloMosaic.Lib.Pipeline.Value

noncomputable section

namespace Cert.LibMinFold

open Idealize.ShloMosaic Idealize.ShloMosaic.ValueIdx

/-- A float `vector.multi_reduction <minimumf>` over one axis, read exactly: the fold of `min` from the accumulator's
    value over that axis's coordinates (the result index with the coordinate put back on the reduced axis). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Down the rows of an [R, C] matrix: at column `n`, the fold of `min` over the row coordinate. -/
theorem colMin_apply {R C : ℕ} (src : FVec Ideal ⟨2, ![R, C]⟩ .f32) (acc : BitVec 32)
    (h : (⟨2, ![R, C]⟩ : Shape).Reduces [0] ⟨1, ![C]⟩) (hφ : FKind.Formats .f32)
    (hacc : acc = FKind.minimumf.neutral .f32 hφ) (n : Fin C) :
    multiReduction .minimumf [0] ⟨1, ![C]⟩ src acc h hφ hacc (ix1 n)
      = (Finset.univ : Finset (Fin R)).fold min (Ideal.ofBits .f32 acc) (fun r => src (ix2 r n)) :=
  (multiReduction_minimumf_single src acc h hφ hacc (ix1 n)).trans (by
    show (Finset.univ : Finset (Fin R)).fold min _ _ = _
    congr 1
    funext r
    show src (h.lift (ix1 n) r) = src (ix2 r n)
    congr 1
    funext ax
    apply Fin.ext
    match ax with
    | ⟨0, _⟩ => rfl
    | ⟨1, _⟩ => rfl)

/-- Along the lanes of an [R, C] matrix: at row `p`, the fold of `min` over the column coordinate. -/
theorem rowMin_apply {R C : ℕ} (src : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ src acc h hφ hacc (ix1 p)
      = (Finset.univ : Finset (Fin C)).fold min (Ideal.ofBits .f32 acc) (fun k => src (ix2 p k)) :=
  (multiReduction_minimumf_single src acc h hφ hacc (ix1 p)).trans (by
    show (Finset.univ : Finset (Fin C)).fold min _ _ = _
    congr 1
    funext k
    show src (h.lift (ix1 p) k) = src (ix2 p k)
    congr 1
    funext ax
    apply Fin.ext
    match ax with
    | ⟨0, _⟩ => rfl
    | ⟨1, _⟩ => rfl)

/-- Down the rows of an [R, C] matrix, a `vector.multi_reduction <add>` at column `n`: the sum over the row coordinate. -/
theorem colAdd_apply {R C : ℕ} (src : FVec Ideal ⟨2, ![R, C]⟩ .f32) (acc : BitVec 32)
    (h : (⟨2, ![R, C]⟩ : Shape).Reduces [0] ⟨1, ![C]⟩) (hφ : FKind.Formats .f32)
    (hacc : acc = FKind.add.neutral .f32 hφ) (n : Fin C) :
    multiReduction .add [0] ⟨1, ![C]⟩ src acc h hφ hacc (ix1 n) = ∑ r : Fin R, src (ix2 r n) :=
  (Ideal.multiReduction_add_single src acc h hφ hacc (ix1 n)).trans (by
    show ∑ r : Fin R, src (h.lift (ix1 n) r) = _
    refine Finset.sum_congr rfl fun r _ => ?_
    congr 1
    funext ax
    apply Fin.ext
    match ax with
    | ⟨0, _⟩ => rfl
    | ⟨1, _⟩ => rfl)

/-- Along the lanes of an [R, C] matrix, a `vector.multi_reduction <add>` at row `p`: the sum over the column coordinate. -/
theorem rowAdd_apply {R C : ℕ} (src : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ src acc h hφ hacc (ix1 p) = ∑ k : Fin C, src (ix2 p k) :=
  (Ideal.multiReduction_add_single src acc h hφ hacc (ix1 p)).trans (by
    show ∑ k : Fin C, src (h.lift (ix1 p) k) = _
    refine Finset.sum_congr rfl fun k _ => ?_
    congr 1
    funext ax
    apply Fin.ext
    match ax with
    | ⟨0, _⟩ => rfl
    | ⟨1, _⟩ => rfl)

/-- A vector [a] laid as a column [a, 1] reads, at `(i, u)`, the vector at `i`. -/
theorem cast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] repeated along the lanes to [a, b] reads, at `(p, c)`, the column at row `p`. -/
theorem bcast_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibMinFold

end
-- ==== Proof.KernelPay.lean ====
/-
  What the two kernel bodies compute, at the ideal values, entry by entry.

  Two patterns, for any extents:
  * rows of a matrix product divided by their floored lengths: (x·w)(p, h) / max (√(Σ_h' (x·w)(p, h')²)) ε is entry h of
    the unit row of row p of x times w;
  * softmax along the lanes: exp (s - rowmax s) / rowsum (exp (s - rowmax s)) at (p, a) is the softmax weight of entry a
    of row p of s.
  Then the printed payloads: the first body stores the unit key rows of its block of anchors and copies its block of
  values; the second body's stored block is, at (p, h), the output row of query row p: the product of its softmax
  weights (of the binned inner products of its unit row with the key rows it was handed) with the value rows.
  A change of float format is the identity at these values, and a product into the zero accumulator is the plain sum.
-/
import proofs.«152052_j82102594830987_2_alg».proof.Proof.Gen.KernelIdeal.Skeleton
import proofs.«152052_j82102594830987_2_alg».proof.Proof.Spec
import proofs.«152052_j82102594830987_2_alg».proof.Proof.LibRowOps
import proofs.«152052_j82102594830987_2_alg».proof.Proof.LibMatmulZero
import proofs.«152052_j82102594830987_2_alg».proof.Proof.LibMinFold
import Idealize.ShloMosaic.Lib.Pipeline.Value
import Idealize.ShloMosaic.Lib.ValueIdx
import Idealize.ShloMosaic.PureOps.Ideal.Laws

noncomputable section

open scoped BigOperators

namespace Cert.KernelSide

open Idealize.ShloMosaic Idealize.ShloMosaic.ValueIdx Cert.Attn

/-! ## Two patterns, for any extents -/

/-- Rows of a product, each divided by its floored length: entry (p, h) is entry h of the unit row of (row p of x)·w. -/
theorem unitRows_apply {R K C : ℕ} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision) (x : FVec Ideal ⟨2, ![R, K]⟩ φ₁) (w : FVec Ideal ⟨2, ![K, C]⟩ φ₂)
    (hred : Shape.Reduces (⟨2, ![R, C]⟩ : Shape) [1] ⟨1, ![R]⟩) (hφ : FKind.Formats .f32)
    (hacc : (0x00000000#32 : BitVec 32) = FKind.add.neutral .f32 hφ)
    (hcast : (⟨1, ![R]⟩ : Shape).ShapeCasts ⟨2, ![R, 1]⟩) (hb : (⟨2, ![R, 1]⟩ : Shape).Broadcasts ⟨2, ![R, C]⟩)
    (p : Fin R) (h : Fin C) :
    divf (matmul D prec x w (constant ⟨2, ![R, C]⟩ .f32 0x00000000#32))
      (broadcastTo ⟨2, ![R, C]⟩
        (maximumf (sqrt (shapeCast ⟨2, ![R, 1]⟩
            (multiReduction .add [1] ⟨1, ![R]⟩
              (mulf (matmul D prec x w (constant ⟨2, ![R, C]⟩ .f32 0x00000000#32))
                (matmul D prec x w (constant ⟨2, ![R, C]⟩ .f32 0x00000000#32))) 0x00000000#32 hred hφ hacc) hcast))
          (broadcast ⟨2, ![R, 1]⟩ (Scalar.ofBits (F := Ideal) .f32 0x2B8CBCCC#32))) hb) (ix2 p h)
      = unit (rowMat (fun d => x (ix2 p d)) (fun d h' => w (ix2 d h'))) h := by
  have e4 : ∀ (p : Fin R) (h : Fin C), matmul D prec x w (constant ⟨2, ![R, C]⟩ .f32 0x00000000#32) (ix2 p h)
      = rowMat (fun d => x (ix2 p d)) (fun d h' => w (ix2 d h')) h :=
    fun p h => Cert.LibMatmulZero.matmul_zero_ix2 D hlc hrc hr hs hl0 hr1 prec x w p h
  rw [divf_apply, Cert.LibMinFold.bcast_a1_ab_apply, maximumf_apply, e4]
  show Ideal.div _ (max (Ideal.sqrt (shapeCast ⟨2, ![R, 1]⟩ _ hcast (ix2 p (0 : Fin 1)))) _) = _
  rw [Cert.LibMinFold.cast_a_a1_apply, Cert.LibRow.rowAdd_apply]
  simp only [mulf_apply, e4]
  rfl

/-- Softmax along the lanes: entry (p, a) is the softmax weight of entry a of row p. -/
theorem softmaxRows_apply {R A : ℕ} (s : FVec Ideal ⟨2, ![R, A]⟩ .f32)
    (hred : Shape.Reduces (⟨2, ![R, A]⟩ : Shape) [1] ⟨1, ![R]⟩) (hφ hφ' : FKind.Formats .f32)
    (haccM : (0xFF800000#32 : BitVec 32) = FKind.maximumf.neutral .f32 hφ)
    (haccA : (0x00000000#32 : BitVec 32) = FKind.add.neutral .f32 hφ')
    (hcast : (⟨1, ![R]⟩ : Shape).ShapeCasts ⟨2, ![R, 1]⟩) (hb : (⟨2, ![R, 1]⟩ : Shape).Broadcasts ⟨2, ![R, A]⟩)
    (p : Fin R) (a : Fin A) :
    divf
      (exp (subf s (broadcastTo ⟨2, ![R, A]⟩ (shapeCast ⟨2, ![R, 1]⟩
        (multiReduction .maximumf [1] ⟨1, ![R]⟩ s 0xFF800000#32 hred hφ haccM) hcast) hb)))
      (broadcastTo ⟨2, ![R, A]⟩ (shapeCast ⟨2, ![R, 1]⟩
        (multiReduction .add [1] ⟨1, ![R]⟩
          (exp (subf s (broadcastTo ⟨2, ![R, A]⟩ (shapeCast ⟨2, ![R, 1]⟩
            (multiReduction .maximumf [1] ⟨1, ![R]⟩ s 0xFF800000#32 hred hφ haccM) hcast) hb)))
          0x00000000#32 hred hφ' haccA) hcast) hb) (ix2 p a)
      = weight (fun a' => s (ix2 p a')) a := by
  have eE : ∀ a' : Fin A,
      exp (subf s (broadcastTo ⟨2, ![R, A]⟩ (shapeCast ⟨2, ![R, 1]⟩
        (multiReduction .maximumf [1] ⟨1, ![R]⟩ s 0xFF800000#32 hred hφ haccM) hcast) hb)) (ix2 p a')
      = ex (fun a'' => s (ix2 p a'')) a' := fun a' => by
    show Ideal.exp (s (ix2 p a') - broadcastTo ⟨2, ![R, A]⟩ (shapeCast ⟨2, ![R, 1]⟩
        (multiReduction .maximumf [1] ⟨1, ![R]⟩ s 0xFF800000#32 hred hφ haccM) hcast) hb (ix2 p a')) = _
    rw [Cert.LibMinFold.bcast_a1_ab_apply, Cert.LibMinFold.cast_a_a1_apply, Cert.LibRow.rowMax_apply]
    rfl
  rw [divf_apply, eE, Cert.LibMinFold.bcast_a1_ab_apply, Cert.LibMinFold.cast_a_a1_apply, Cert.LibRow.rowAdd_apply]
  simp only [eE]
  rfl

/-! ## The printed records: which result axis each operand's free axis is -/

section Printed

open Cert.KernelIdeal Cert.KernelIdeal.Gen

theorem keysDot_l0 (i : S1024x512.Idx) (c : dot_S1024x512_S512x512_S1024x512_1_0_0_1_n_n.contr.Idx) : (dot_S1024x512_S512x512_S1024x512_1_0_0_1_n_n.lhsIdx i c 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem keysDot_r1 (i : S1024x512.Idx) (c : dot_S1024x512_S512x512_S1024x512_1_0_0_1_n_n.contr.Idx) : (dot_S1024x512_S512x512_S1024x512_1_0_0_1_n_n.rhsIdx i c 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl
theorem queryDot_l0 (i : S128x512.Idx) (c : dot_S128x512_S512x512_S128x512_1_0_0_1_n_n.contr.Idx) : (dot_S128x512_S512x512_S128x512_1_0_0_1_n_n.lhsIdx i c 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
theorem queryDot_r1 (i : S128x512.Idx) (c : dot_S128x512_S512x512_S128x512_1_0_0_1_n_n.contr.Idx) : (dot_S128x512_S512x512_S128x512_1_0_0_1_n_n.rhsIdx i c 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl
theorem simDot_l0 (i : S128x4096.Idx) (c : dot_S128x512_S4096x512_S128x4096_1_1_0_0_n_n.contr.Idx) : (dot_S128x512_S4096x512_S128x4096_1_1_0_0_n_n.lhsIdx i c 0).val = (i 0).val := by
  unfold DotDims.lhsIdx
  rw [dif_neg (show ¬(0 : Fin S128x512.rank) ∈ dot_S128x512_S4096x512_S128x4096_1_1_0_0_n_n.lhsBatch by decide), dif_pos (show (0 : Fin S128x512.rank) ∈ dot_S128x512_S4096x512_S128x4096_1_1_0_0_n_n.lhsNonContracting by decide)]
  rfl
theorem simDot_r0 (i : S128x4096.Idx) (c : dot_S128x512_S4096x512_S128x4096_1_1_0_0_n_n.contr.Idx) : (dot_S128x512_S4096x512_S128x4096_1_1_0_0_n_n.rhsIdx i c 0).val = (i 1).val := by
  unfold DotDims.rhsIdx
  rw [dif_neg (show ¬(0 : Fin S4096x512.rank) ∈ dot_S128x512_S4096x512_S128x4096_1_1_0_0_n_n.rhsBatch by decide), dif_pos (show (0 : Fin S4096x512.rank) ∈ dot_S128x512_S4096x512_S128x4096_1_1_0_0_n_n.rhsNonContracting by decide)]
  rfl
theorem outDot_l0 (i : S128x512.Idx) (c : dot_S128x4096_S4096x512_S128x512_1_0_0_1_n_n.contr.Idx) : (dot_S128x4096_S4096x512_S128x512_1_0_0_1_n_n.lhsIdx i c 0).val = (i 0).val := by
  unfold DotDims.lhsIdx
  rw [dif_neg (show ¬(0 : Fin S128x4096.rank) ∈ dot_S128x4096_S4096x512_S128x512_1_0_0_1_n_n.lhsBatch by decide), dif_pos (show (0 : Fin S128x4096.rank) ∈ dot_S128x4096_S4096x512_S128x512_1_0_0_1_n_n.lhsNonContracting by decide)]
  rfl
theorem outDot_r1 (i : S128x512.Idx) (c : dot_S128x4096_S4096x512_S128x512_1_0_0_1_n_n.contr.Idx) : (dot_S128x4096_S4096x512_S128x512_1_0_0_1_n_n.rhsIdx i c 1).val = (i 1).val := by
  unfold DotDims.rhsIdx
  rw [dif_neg (show ¬(1 : Fin S4096x512.rank) ∈ dot_S128x4096_S4096x512_S128x512_1_0_0_1_n_n.rhsBatch by decide), dif_pos (show (1 : Fin S4096x512.rank) ∈ dot_S128x4096_S4096x512_S128x512_1_0_0_1_n_n.rhsNonContracting by decide)]
  rfl

/-! ## The first body: unit key rows, and the value rows copied -/

/-- The first body's first store, at (p, h): entry h of the unit row of (row p of the anchors block)·W_k. -/
theorem pay_keys (x0 : Vec Ideal S1024x512 .f32) (x1 : Vec Ideal S512x512 .f32) (p : Fin 1024) (h : Fin 512) :
    k0_pay1 (F := Ideal) x0 x1 (ix2 p h) = unit (rowMat (row x0 p) (mat x1)) h :=
  unitRows_apply dot_S1024x512_S512x512_S1024x512_1_0_0_1_n_n rfl rfl rfl rfl keysDot_l0 keysDot_r1 none
    (truncf .bf16 x0 bitsLt_bf16_f32) (truncf .bf16 x1 bitsLt_bf16_f32)
    reduces_S1024x512_S1024 (.inl rfl) rfl shapeCasts_S1024_S1024x1 broadcasts_S1024x1_S1024x512 p h

/-- The first body's second store is its block of values (a change of format is the identity). -/
theorem pay_values (x : Vec Ideal S1024x512 .f32) (i : S1024x512.Idx) : k0_pay2 (F := Ideal) x i = x i := rfl

/-! ## The second body, in pieces -/

variable (x0 : Vec Ideal S128x512 .f32) (x1 : Vec Ideal S512x512 .f32) (x2 : Vec Ideal S4096x512 .f32)
  (x3 : Vec Ideal S4096x512 .bf16)

/-- The block of queries times W_q. -/
def kProj : FVec Ideal S128x512 .f32 :=
  matmul dot_S128x512_S512x512_S128x512_1_0_0_1_n_n none (truncf .bf16 x0 bitsLt_bf16_f32) (truncf .bf16 x1 bitsLt_bf16_f32)
    (constant S128x512 .f32 0x00000000#32)

/-- Its rows divided by their floored lengths. -/
def kUnit : FVec Ideal S128x512 .f32 :=
  divf (kProj x0 x1)
    (broadcastTo S128x512
      (maximumf (sqrt (shapeCast S128x1
          (multiReduction .add [1] S128 (mulf (kProj x0 x1) (kProj x0 x1)) 0x00000000#32 reduces_S128x512_S128 (.inl rfl) rfl)
          shapeCasts_S128_S128x1))
        (broadcast S128x1 (Scalar.ofBits (F := Ideal) .f32 0x2B8CBCCC#32))) broadcasts_S128x1_S128x512)

/-- The inner products with the key rows handed in. -/
def kSim : FVec Ideal S128x4096 .f32 :=
  matmul dot_S128x512_S4096x512_S128x4096_1_1_0_0_n_n (some .fp32) (kUnit x0 x1)
    (shapeCast S4096x512 x2 shapeCasts_S4096x512_S4096x512 : FVec Ideal S4096x512 .f32)
    (constant S128x4096 .f32 0x00000000#32)

/-- The binned inner products. -/
def kScores : FVec Ideal S128x4096 .f32 :=
  mulf (roundeven (divf (kSim x0 x1 x2) (broadcast S128x4096 (Scalar.ofBits (F := Ideal) .f32 0x3D4CCCCD#32))))
    (broadcast S128x4096 (Scalar.ofBits (F := Ideal) .f32 0x3D4CCCCD#32))

/-- exp (score - row maximum). -/
def kExp : FVec Ideal S128x4096 .f32 :=
  exp (subf (kScores x0 x1 x2)
    (broadcastTo S128x4096 (shapeCast S128x1
      (multiReduction .maximumf [1] S128 (kScores x0 x1 x2) 0xFF800000#32 reduces_S128x4096_S128 (.inl rfl) rfl)
      shapeCasts_S128_S128x1) broadcasts_S128x1_S128x4096))

/-- The softmax weights. -/
def kWeights : FVec Ideal S128x4096 .f32 :=
  divf (kExp x0 x1 x2)
    (broadcastTo S128x4096 (shapeCast S128x1
      (multiReduction .add [1] S128 (kExp x0 x1 x2) 0x00000000#32 reduces_S128x4096_S128 (.inl rfl) rfl)
      shapeCasts_S128_S128x1) broadcasts_S128x1_S128x4096)

/-- The second body's store is the weights times the value rows handed in: the printed term, in these pieces. -/
theorem k1_pay1_eq : k1_pay1 (F := Ideal) x0 x1 x2 x3
    = matmul dot_S128x4096_S4096x512_S128x512_1_0_0_1_n_n none (truncf .bf16 (kWeights x0 x1 x2) bitsLt_bf16_f32)
        (shapeCast S4096x512 x3 shapeCasts_S4096x512_S4096x512 : FVec Ideal S4096x512 .bf16)
        (constant S128x512 .f32 0x00000000#32) := rfl

theorem kUnit_apply (p : Fin 128) (h : Fin 512) : kUnit x0 x1 (ix2 p h) = unit (rowMat (row x0 p) (mat x1)) h :=
  unitRows_apply dot_S128x512_S512x512_S128x512_1_0_0_1_n_n rfl rfl rfl rfl queryDot_l0 queryDot_r1 none
    (truncf .bf16 x0 bitsLt_bf16_f32) (truncf .bf16 x1 bitsLt_bf16_f32)
    reduces_S128x512_S128 (.inl rfl) rfl shapeCasts_S128_S128x1 broadcasts_S128x1_S128x512 p h

theorem kSim_apply (p : Fin 128) (a : Fin 4096) :
    kSim x0 x1 x2 (ix2 p a) = sims (unit (rowMat (row x0 p) (mat x1))) (mat x2) a := by
  unfold kSim
  refine (Cert.LibRow.matmul_zero_nt_ix2 dot_S128x512_S4096x512_S128x4096_1_1_0_0_n_n rfl rfl rfl rfl simDot_l0 simDot_r0 (some .fp32) _ _ p a).trans ?_
  unfold sims
  refine Finset.sum_congr rfl fun k _ => ?_
  rw [kUnit_apply, shapeCast_self]
  rfl

theorem kScores_apply (p : Fin 128) (a : Fin 4096) :
    kScores x0 x1 x2 (ix2 p a) = binned (sims (unit (rowMat (row x0 p) (mat x1))) (mat x2) a) := by
  show Ideal.liftRound Ideal.roundHalfEven (Ideal.div (kSim x0 x1 x2 (ix2 p a)) _) * _ = _
  rw [kSim_apply]
  rfl

theorem kWeights_apply (p : Fin 128) (a : Fin 4096) :
    kWeights x0 x1 x2 (ix2 p a)
      = weight (fun a' => binned (sims (unit (rowMat (row x0 p) (mat x1))) (mat x2) a')) a :=
  (softmaxRows_apply (kScores x0 x1 x2) reduces_S128x4096_S128 (.inl rfl) (.inl rfl) rfl rfl shapeCasts_S128_S128x1
      broadcasts_S128x1_S128x4096 p a).trans
    (congrArg (fun s => weight s a) (funext fun a' => kScores_apply x0 x1 x2 p a'))

/-- The second body's store, at (p, h): entry h of the output row of query row p of its block. -/
theorem pay_attend (p : Fin 128) (h : Fin 512) :
    k1_pay1 (F := Ideal) x0 x1 x2 x3 (ix2 p h) = attendRow (row x0 p) (mat x1) (mat x2) (mat x3) h := by
  rw [k1_pay1_eq]
  refine (Cert.LibMatmulZero.matmul_zero_ix2 dot_S128x4096_S4096x512_S128x512_1_0_0_1_n_n rfl rfl rfl rfl outDot_l0 outDot_r1 none _ _ p h).trans ?_
  unfold attendRow combine
  refine Finset.sum_congr rfl fun a _ => ?_
  rw [truncf_apply, kWeights_apply, shapeCast_self]
  rfl

end Printed

end Cert.KernelSide

end
-- ==== Proof.RegionKeys.lean ====
/-
  The first region's two output arrays, whatever the buffers hold when it is entered.

  Point t of its grid of 4 stages rows 1024·t … 1024·t + 1023 of the anchors and of the values and all of W_k; what it
  writes back to the first output is, at row p of the block, the unit row of (anchors row 1024·t + p)·W_k, which depends
  on that one row only: so every write-back is a block of ONE array, the unit key rows of the anchors and W_k as the
  region finds them, and the four blocks tile the 4096 rows.  The second output's blocks are the blocks of the values.
-/
import proofs.«152052_j82102594830987_2_alg».proof.Proof.Gen.KernelIdeal.Frame
import proofs.«152052_j82102594830987_2_alg».proof.Proof.KernelPay
import Idealize.ShloMosaic.Lib.Pipeline.Value

set_option maxRecDepth 16384

noncomputable section

namespace Cert.KernelSide

open Cert.KernelIdeal Cert.KernelIdeal.Gen
open Idealize.ShloMosaic Idealize.ShloMosaic.TcCoe Idealize.SL.Sem Idealize.ShloMosaic.ValueIdx Cert.Attn
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- The first region's index maps over its grid: the row-blocked windows are at block (t, 0), W_k's at (0, 0). -/
theorem keys_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- WHAT POINT t WRITES BACK to the first output: block t of the unit key rows of the anchors and W_k. -/
theorem keys_flushed (c : Dev nD) (t : Fin cfg0.N) :
    (dat0 V c).flushed 3 t
      = ((cfg0.win 3).blk t).view.read (Elt Ideal) (keyArr (A := 4096) (D := 512) (H := 512) (V c main_arg1) (V c main_arg3)) := by
  show (cfg0.win 3).cut (grid0.coords t) ((dat0 V c).after 3 t) = _
  rw [after0_3]
  unfold out0_3
  rw [View.canon_unit_zero zeroOff]
  simp only [View.ld_unit_zero (S := S1024x512) zeroOff, View.ld_unit_zero (S := S512x512) zeroOff]
  obtain ⟨e00, e01, e10, e11, e20, e21, e30, e31, e40, e41⟩ := keys_idx t
  funext j
  obtain ⟨p, h, rfl⟩ : ∃ (p : Fin 1024) (h : Fin 512), j = ix2 p h := ⟨j 0, j 1, eq_ix2 j⟩
  show k0_pay1 (F := Ideal) (iblk0 V c 0 t) (iblk0 V c 1 t) (ix2 p h)
    = keyArr (A := 4096) (D := 512) (H := 512) (V c main_arg1) (V c main_arg3) (((cfg0.win 3).blk t).view.emb (ix2 p h))
  refine (pay_keys _ _ p h).trans ?_
  have hrow : row (iblk0 V c 0 t) p
      = row (R := 4096) (V c main_arg1) ((((cfg0.win 3).blk t).view.emb (ix2 p h)) 0) := funext fun d => by
    show V c main_arg1 (((cfg0.win 0).blk t).view.emb (ix2 p d)) = V c main_arg1 (ix2 _ d)
    refine congrArg _ (funext fun a => Fin.ext ?_)
    match a with
    | ⟨0, _⟩ =>
      show win0_0.index t (0 : Fin 2) * 1024 + 1 * p.val = win0_3.index t (0 : Fin 2) * 1024 + 1 * p.val
      rw [e00, e30]
    | ⟨1, _⟩ =>
      show win0_0.index t (1 : Fin 2) * 512 + 1 * d.val = d.val
      rw [e01]; omega
  have hmat : mat (iblk0 V c 1 t) = mat (R := 512) (C := 512) (V c main_arg3) := funext fun d => funext fun h' => by
    show V c main_arg3 (((cfg0.win 1).blk t).view.emb (ix2 d h')) = V c main_arg3 (ix2 d h')
    refine congrArg _ (funext fun a => Fin.ext ?_)
    match a with
    | ⟨0, _⟩ =>
      show win0_1.index t (0 : Fin 2) * 512 + 1 * d.val = d.val
      rw [e10]; omega
    | ⟨1, _⟩ =>
      show win0_1.index t (1 : Fin 2) * 512 + 1 * h'.val = h'.val
      rw [e11]; omega
  have hcol : (((cfg0.win 3).blk t).view.emb (ix2 p h)) 1 = h := Fin.ext (by
    show win0_3.index t (1 : Fin 2) * 512 + 1 * h.val = h.val
    rw [e31]; omega)
  show unit (rowMat (row (iblk0 V c 0 t) p) (mat (iblk0 V c 1 t))) h
    = unit (rowMat (row (R := 4096) (V c main_arg1) ((((cfg0.win 3).blk t).view.emb (ix2 p h)) 0))
        (mat (R := 512) (C := 512) (V c main_arg3))) ((((cfg0.win 3).blk t).view.emb (ix2 p h)) 1)
  rw [hrow, hmat, hcol]

/-- WHAT POINT t WRITES BACK to the second output: block t of the values. -/
theorem values_flushed (c : Dev nD) (t : Fin cfg0.N) :
    (dat0 V c).flushed 4 t = ((cfg0.win 4).blk t).view.read (Elt Ideal) (fun i => V c main_arg4 i) := by
  show (cfg0.win 4).cut (grid0.coords t) ((dat0 V c).after 4 t) = _
  rw [after0_4]
  unfold out0_4
  rw [View.canon_unit_zero zeroOff]
  simp only [View.ld_unit_zero (S := S1024x512) zeroOff]
  obtain ⟨e00, e01, e10, e11, e20, e21, e30, e31, e40, e41⟩ := keys_idx t
  funext j
  show V c main_arg4 (((cfg0.win 2).blk t).view.emb j) = V c main_arg4 (((cfg0.win 4).blk t).view.emb j)
  refine congrArg _ (funext fun a => Fin.ext ?_)
  match a with
  | ⟨0, _⟩ =>
    show win0_2.index t (0 : Fin 2) * 1024 + 1 * (j 0).val = win0_4.index t (0 : Fin 2) * 1024 + 1 * (j 0).val
    rw [e20, e40]
  | ⟨1, _⟩ =>
    show win0_2.index t (1 : Fin 2) * 512 + 1 * (j 1).val = win0_4.index t (1 : Fin 2) * 512 + 1 * (j 1).val
    rw [e21, e41]

/-- An index of a [4096, 512] output array is in point t's block iff each coordinate is in the block's range. -/
theorem keys_mem_blk (t : Fin cfg0.N) (i : S4096x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0_0).slice (win0_3.rect t)).set ↔ _
  rw [View.set_slice_whole, Rect.mem_set_unit]
  exact Iff.rfl

theorem values_mem_blk (t : Fin cfg0.N) (i : S4096x512.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v0_1).slice (win0_4.rect t)).set ↔ _
  rw [View.set_slice_whole, Rect.mem_set_unit]
  exact Iff.rfl

/-- The point whose block holds row r: r / 1024. -/
def keysPoint (i : S4096x512.Idx) : Fin cfg0.N :=
  ⟨(i 0).val / 1024, by have h : (i 0).val < 4096 := (i 0).isLt; show _ < grid0.N; rw [N_0]; omega⟩

/-- THE FIRST OUTPUT after the region: the unit key rows of the anchors and W_k as the region finds them. -/
theorem keys_final (c : Dev nD) :
    (dat0 V c).arrAt 3 cfg0.N = keyArr (A := 4096) (D := 512) (H := 512) (V c main_arg1) (V c main_arg3) :=
  (dat0 V c).arrAt_eq_of_cover 3 _ (fun t _ => keys_flushed V c t) fun i => by
    refine ⟨keysPoint i, flush0_3 _, ?_⟩
    obtain ⟨e00, e01, e10, e11, e20, e21, e30, e31, e40, e41⟩ := keys_idx (keysPoint i)
    have hi0 : (i 0).val < 4096 := (i 0).isLt
    have hi1 : (i 1).val < 512 := (i 1).isLt
    rw [keys_mem_blk]
    intro a
    match a with
    | ⟨0, _⟩ =>
      show win0_3.index (keysPoint i) (0 : Fin 2) * 1024 ≤ (i 0).val
        ∧ (i 0).val < win0_3.index (keysPoint i) (0 : Fin 2) * 1024 + 1024
      rw [e30]
      show (i 0).val / 1024 * 1024 ≤ (i 0).val ∧ (i 0).val < (i 0).val / 1024 * 1024 + 1024
      omega
    | ⟨1, _⟩ =>
      show win0_3.index (keysPoint i) (1 : Fin 2) * 512 ≤ (i 1).val
        ∧ (i 1).val < win0_3.index (keysPoint i) (1 : Fin 2) * 512 + 512
      rw [e31]; omega

/-- THE SECOND OUTPUT after the region: the values as the region finds them. -/
theorem values_final (c : Dev nD) : (dat0 V c).arrAt 4 cfg0.N = (fun i => V c main_arg4 i) :=
  (dat0 V c).arrAt_eq_of_cover 4 _ (fun t _ => values_flushed V c t) fun i => by
    refine ⟨keysPoint i, flush0_4 _, ?_⟩
    obtain ⟨e00, e01, e10, e11, e20, e21, e30, e31, e40, e41⟩ := keys_idx (keysPoint i)
    have hi0 : (i 0).val < 4096 := (i 0).isLt
    have hi1 : (i 1).val < 512 := (i 1).isLt
    rw [values_mem_blk]
    intro a
    match a with
    | ⟨0, _⟩ =>
      show win0_4.index (keysPoint i) (0 : Fin 2) * 1024 ≤ (i 0).val
        ∧ (i 0).val < win0_4.index (keysPoint i) (0 : Fin 2) * 1024 + 1024
      rw [e40]
      show (i 0).val / 1024 * 1024 ≤ (i 0).val ∧ (i 0).val < (i 0).val / 1024 * 1024 + 1024
      omega
    | ⟨1, _⟩ =>
      show win0_4.index (keysPoint i) (1 : Fin 2) * 512 ≤ (i 1).val
        ∧ (i 1).val < win0_4.index (keysPoint i) (1 : Fin 2) * 512 + 512
      rw [e41]; omega

end Cert.KernelSide

end
-- ==== Proof.RegionAttend.lean ====
/-
  The second region's output array, whatever the buffers hold when it is entered.

  Point t of its grid of 128 stages rows 128·t … 128·t + 127 of the queries and all of W_q, of the key rows and of the
  value rows; what it writes back is, at row p of the block, the output row of query row 128·t + p, which depends on
  that one query row only (and on the three whole arrays): so every write-back is a block of ONE array, and the 128
  blocks tile the 16384 rows.
-/
import proofs.«152052_j82102594830987_2_alg».proof.Proof.Gen.KernelIdeal.Frame
import proofs.«152052_j82102594830987_2_alg».proof.Proof.KernelPay
import Idealize.ShloMosaic.Lib.Pipeline.Value

set_option maxRecDepth 16384

noncomputable section

namespace Cert.KernelSide

open Cert.KernelIdeal Cert.KernelIdeal.Gen
open Idealize.ShloMosaic Idealize.ShloMosaic.TcCoe Idealize.SL.Sem Idealize.ShloMosaic.ValueIdx Cert.Attn
open Idealize.ShloMosaic.Pipeline (Dat)

variable (V : (c : Dev nD) → (b : Ref sig .tc) → Buf (Elt Ideal) ((c : Thread nD τ).loc b))

theorem zeroOff' : (![0, 0] : Fin 2 → Nat) = fun _ => 0 := funext fun a => by fin_cases a <;> rfl

/-- The second region's index maps over its grid: the queries' and the output's windows are at block (t, 0), the three
    whole-array windows at (0, 0). -/
theorem attend_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The array the second region leaves: the second pass of the specification on what the region finds. -/
def attendOf (c : Dev nD) : S16384x512.Idx → EReal :=
  attendArr (B := 16384) (D := 512) (H := 512) (A := 4096) (V c main_arg0) (V c main_arg2) (V c main_v0_0)
    (fun i => V c main_v0_1 i)

/-- WHAT POINT t WRITES BACK: block t of that array. -/
theorem attend_flushed (c : Dev nD) (t : Fin cfg1.N) :
    (dat1 V c).flushed 4 t = ((cfg1.win 4).blk t).view.read (Elt Ideal) (attendOf V c) := by
  show (cfg1.win 4).cut (grid1.coords t) ((dat1 V c).after 4 t) = _
  rw [after1_4]
  unfold out1_4
  rw [View.canon_unit_zero zeroOff']
  simp only [View.ld_unit_zero (S := S128x512) zeroOff', View.ld_unit_zero (S := S512x512) zeroOff',
    View.ld_unit_zero (S := S4096x512) zeroOff']
  obtain ⟨e00, e01, e10, e11, e20, e21, e30, e31, e40, e41⟩ := attend_idx t
  funext j
  obtain ⟨p, h, rfl⟩ : ∃ (p : Fin 128) (h : Fin 512), j = ix2 p h := ⟨j 0, j 1, eq_ix2 j⟩
  show k1_pay1 (F := Ideal) (iblk1 V c 0 t) (iblk1 V c 1 t) (iblk1 V c 2 t) (iblk1 V c 3 t) (ix2 p h)
    = attendOf V c (((cfg1.win 4).blk t).view.emb (ix2 p h))
  refine (pay_attend _ _ _ _ p h).trans ?_
  have hrow : row (iblk1 V c 0 t) p
      = row (R := 16384) (V c main_arg0) ((((cfg1.win 4).blk t).view.emb (ix2 p h)) 0) := funext fun d => by
    show V c main_arg0 (((cfg1.win 0).blk t).view.emb (ix2 p d)) = V c main_arg0 (ix2 _ d)
    refine congrArg _ (funext fun a => Fin.ext ?_)
    match a with
    | ⟨0, _⟩ =>
      show win1_0.index t (0 : Fin 2) * 128 + 1 * p.val = win1_4.index t (0 : Fin 2) * 128 + 1 * p.val
      rw [e00, e40]
    | ⟨1, _⟩ =>
      show win1_0.index t (1 : Fin 2) * 512 + 1 * d.val = d.val
      rw [e01]; omega
  have hWq : mat (iblk1 V c 1 t) = mat (R := 512) (C := 512) (V c main_arg2) := funext fun d => funext fun h' => by
    show V c main_arg2 (((cfg1.win 1).blk t).view.emb (ix2 d h')) = V c main_arg2 (ix2 d h')
    refine congrArg _ (funext fun a => Fin.ext ?_)
    match a with
    | ⟨0, _⟩ =>
      show win1_1.index t (0 : Fin 2) * 512 + 1 * d.val = d.val
      rw [e10]; omega
    | ⟨1, _⟩ =>
      show win1_1.index t (1 : Fin 2) * 512 + 1 * h'.val = h'.val
      rw [e11]; omega
  have hK : mat (iblk1 V c 2 t) = mat (R := 4096) (C := 512) (V c main_v0_0) := funext fun a' => funext fun h' => by
    show V c main_v0_0 (((cfg1.win 2).blk t).view.emb (ix2 a' h')) = V c main_v0_0 (ix2 a' h')
    refine congrArg _ (funext fun a => Fin.ext ?_)
    match a with
    | ⟨0, _⟩ =>
      show win1_2.index t (0 : Fin 2) * 4096 + 1 * a'.val = a'.val
      rw [e20]; omega
    | ⟨1, _⟩ =>
      show win1_2.index t (1 : Fin 2) * 512 + 1 * h'.val = h'.val
      rw [e21]; omega
  have hV : mat (iblk1 V c 3 t) = mat (R := 4096) (C := 512) (fun i => V c main_v0_1 i) :=
    funext fun a' => funext fun h' => by
    show V c main_v0_1 (((cfg1.win 3).blk t).view.emb (ix2 a' h')) = V c main_v0_1 (ix2 a' h')
    refine congrArg _ (funext fun a => Fin.ext ?_)
    match a with
    | ⟨0, _⟩ =>
      show win1_3.index t (0 : Fin 2) * 4096 + 1 * a'.val = a'.val
      rw [e30]; omega
    | ⟨1, _⟩ =>
      show win1_3.index t (1 : Fin 2) * 512 + 1 * h'.val = h'.val
      rw [e31]; omega
  have hcol : (((cfg1.win 4).blk t).view.emb (ix2 p h)) 1 = h := Fin.ext (by
    show win1_4.index t (1 : Fin 2) * 512 + 1 * h.val = h.val
    rw [e41]; omega)
  show attendRow (row (iblk1 V c 0 t) p) (mat (iblk1 V c 1 t)) (mat (iblk1 V c 2 t)) (mat (iblk1 V c 3 t)) h
    = attendRow (row (R := 16384) (V c main_arg0) ((((cfg1.win 4).blk t).view.emb (ix2 p h)) 0))
        (mat (R := 512) (C := 512) (V c main_arg2)) (mat (R := 4096) (C := 512) (V c main_v0_0))
        (mat (R := 4096) (C := 512) (fun i => V c main_v0_1 i)) ((((cfg1.win 4).blk t).view.emb (ix2 p h)) 1)
  rw [hrow, hWq, hK, hV, hcol]

/-- An index of the output array is in point t's block iff each coordinate is in the block's range. -/
theorem attend_mem_blk (t : Fin cfg1.N) (i : S16384x512.Idx) :
    i ∈ ((cfg1.win 4).blk t).view.set ↔ ∀ a : Fin 2, win1_4.index t a * S128x512.size a ≤ (i a).val
      ∧ (i a).val < win1_4.index t a * S128x512.size a + S128x512.size a := by
  show i ∈ ((View.whole main_v1).slice (win1_4.rect t)).set ↔ _
  rw [View.set_slice_whole, Rect.mem_set_unit]
  exact Iff.rfl

/-- The point whose block holds row r: r / 128. -/
def attendPoint (i : S16384x512.Idx) : Fin cfg1.N :=
  ⟨(i 0).val / 128, by have h : (i 0).val < 16384 := (i 0).isLt; show _ < grid1.N; rw [N_1]; omega⟩

/-- THE OUTPUT ARRAY after the region. -/
theorem attend_final (c : Dev nD) : (dat1 V c).arrAt 4 cfg1.N = attendOf V c :=
  (dat1 V c).arrAt_eq_of_cover 4 _ (fun t _ => attend_flushed V c t) fun i => by
    refine ⟨attendPoint i, flush1_4 _, ?_⟩
    obtain ⟨e00, e01, e10, e11, e20, e21, e30, e31, e40, e41⟩ := attend_idx (attendPoint i)
    have hi0 : (i 0).val < 16384 := (i 0).isLt
    have hi1 : (i 1).val < 512 := (i 1).isLt
    rw [attend_mem_blk]
    intro a
    match a with
    | ⟨0, _⟩ =>
      show win1_4.index (attendPoint i) (0 : Fin 2) * 128 ≤ (i 0).val
        ∧ (i 0).val < win1_4.index (attendPoint i) (0 : Fin 2) * 128 + 128
      rw [e40]
      show (i 0).val / 128 * 128 ≤ (i 0).val ∧ (i 0).val < (i 0).val / 128 * 128 + 128
      omega
    | ⟨1, _⟩ =>
      show win1_4.index (attendPoint i) (1 : Fin 2) * 512 ≤ (i 1).val
        ∧ (i 1).val < win1_4.index (attendPoint i) (1 : Fin 2) * 512 + 512
      rw [e41]; omega

end Cert.KernelSide

end
-- ==== Proof.KernelRun.lean ====
/-
  The idealized kernel's run, with the final memory named: after the two regions every unscoped buffer of a core holds
  what the second region's exit leaves there — its own arrays at what its write-backs fold to, every other buffer at
  what the first region's exit left.  The statement differs from the frame claim only in what it keeps of the final
  state: the contents of every unscoped buffer rather than of the five arguments alone, so that the result array can
  be read off it.
-/
import proofs.«152052_j82102594830987_2_alg».proof.Proof.Gen.KernelIdeal.Frame

set_option maxRecDepth 16384

noncomputable section

namespace Cert.KernelSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each unscoped buffer of
    each core holds the contents the second region's exit leaves (`W2`). -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The result array and the five arguments in a final state: the result at the second region's output array after
    its write-backs, the arguments as launched. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ (mem_uc main_v1 (by decide))).trans (W2_arr m ρ c 4),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)
    (run_final m ρ)

end Cert.KernelSide

end
-- ==== Proof.KernelValue.lean ====
/-
  The idealized kernel's result array: the specification's `result` of the five arguments as launched.

  The second region is entered on what the first left: the queries and W_q untouched, the first region's first output
  at the unit key rows of the anchors and W_k, its second output at the values.  So the second region's output array,
  the second pass of the specification on those four arrays, is the whole function of the launch contents, and the
  run ends with the result buffer holding it.
-/
import proofs.«152052_j82102594830987_2_alg».proof.Proof.RegionKeys
import proofs.«152052_j82102594830987_2_alg».proof.Proof.RegionAttend
import proofs.«152052_j82102594830987_2_alg».proof.Proof.KernelRun

set_option maxRecDepth 16384

noncomputable section

namespace Cert.KernelSide

open Cert.KernelIdeal Cert.KernelIdeal.Gen
open Idealize.ShloMosaic Idealize.ShloMosaic.TcCoe Idealize.SL.Sem Cert.Attn

variable (m : (ℓ : Loc nD τ sig) → Buf (Elt Ideal) ℓ) (ρ : Dev nD → PrngReg)

/-- The second region finds the queries as launched … -/
theorem entry_queries (c : Dev nD) : V1 m ρ c main_arg0 = m ((c.tc : Thread nD τ).loc main_arg0) :=
  W1_of_ne m ρ c main_arg0 (by decide)

/-- … W_q as launched … -/
theorem entry_Wq (c : Dev nD) : V1 m ρ c main_arg2 = m ((c.tc : Thread nD τ).loc main_arg2) :=
  W1_of_ne m ρ c main_arg2 (by decide)

/-- … the unit key rows of the anchors and W_k as launched … -/
theorem entry_keys (c : Dev nD) :
    V1 m ρ c main_v0_0 = keyArr (A := 4096) (D := 512) (H := 512) (m ((c.tc : Thread nD τ).loc main_arg1)) (m ((c.tc : Thread nD τ).loc main_arg3)) :=
  (W1_arr m ρ c 3).trans (keys_final (V0 m ρ) c)

/-- … and the values as launched. -/
theorem entry_values (c : Dev nD) : V1 m ρ c main_v0_1 = (fun i => (m ((c.tc : Thread nD τ).loc main_arg4)) i) :=
  (W1_arr m ρ c 4).trans (values_final (V0 m ρ) c)

/-- THE RESULT ARRAY after the second region: the specification's result of the launch contents. -/
theorem result_final (c : Dev nD) :
    (dat1 (V1 m ρ) c).arrAt 4 cfg1.N
      = result (B := 16384) (D := 512) (H := 512) (A := 4096) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [attend_final]
  unfold attendOf
  rw [entry_queries, entry_Wq, entry_keys, entry_values]
  rfl

/-- THE RUN: every weakly fair execution of the idealized kernel terminates, nothing faulting, with the result buffer
    at the specification's result of the arguments and the arguments as launched. -/
theorem kernel_run : θ_run defs (onTc (τ := τ) (main (F := Ideal))) ⟨m, fun _ => 0, ρ⟩ (fun r => ∀ c : Dev nD,
      r.2.mem ((c.tc : Thread nD τ).loc main_v1)
        = result (B := 16384) (D := 512) (H := 512) (A := 4096) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_final m ρ c), (h c).2⟩) (run_result m ρ)

end Cert.KernelSide

end
-- ==== Proof.LibGraphOps.lean ====
/-
  Rows of a node table gathered along an edge list, and rows scattered back with addition, at the ideal values.

  A table x : [N, J] gathered at a column of E start indices has at (e, j) the entry x(r e, j), where r e is the start
  index of edge e read as a signed integer and clamped into [0, N - 1]; a vector x : [N] gathered the same way has at e
  the entry x(r e).  A scatter-add of updates u : [E, J] into a table [N, J] at a column of E indices adds u(e, j) into
  row d of column j exactly for the edges e whose index, read signed and NOT clamped, is d; an index outside [0, N)
  adds nothing.  So an edge that lands on row d has a non-negative index whose clamp is d itself.

  The law proved here (scatterAdd_rescale): if every update of one scatter is the matching update of another times a
  factor that depends only on the row the edge lands on, and that factor is a non-negative real number, then the first
  scatter's sum is the second's times the factor.  On the extended reals (a + b) * c = a * c + b * c holds for any a, b
  once 0 ≤ c < ⊤, which is what lets the factor leave the sum whatever the summands are.
  Also here: the host's reduction with a maximum body along the columns of a matrix, at a row, as a fold of max over the
  columns (hostRowMax_apply), at any extents.
  Imports only the library.
-/
import Idealize.ShloMosaic.PureOps.Ideal.Laws
import Idealize.ShloMosaic.Lib.ValueIdx
import Idealize.ShloMosaic.Lib.Pipeline.Value

noncomputable section

open scoped BigOperators

namespace Cert.LibGraph

open Idealize.ShloMosaic Idealize.ShloMosaic.ValueIdx

/-! ## A start index read signed and clamped into the table -/

/-- A start index word read as a signed integer and clamped into [0, N - 1]. -/
def clampIdx (N : Nat) (hN : 0 < N) {w : Nat} (v : BitVec w) : Fin N :=
  ⟨min v.toInt.toNat (N - 1), by have := Nat.min_le_right v.toInt.toNat (N - 1); omega⟩

/-- A non-negative index below N is its own clamp. -/
theorem clampIdx_of_landed {N : Nat} (hN : 0 < N) {w : Nat} (v : BitVec w) (d : Fin N) (h : v.toInt = (d.val : Int)) :
    clampIdx N hN v = d := by
  apply Fin.ext
  show min v.toInt.toNat (N - 1) = d.val
  have := d.isLt
  have h' : v.toInt.toNat = d.val := by omega
  rw [h']; omega

/-! ## Gathers of rows -/

/-- The dimension numbers of x[idx] for a table [N, J] and a column [E, 1] of start indices. -/
abbrev rowsGather (N J E : Nat) (wf : GatherDims.WF ⟨2, ![N, J]⟩ ⟨2, ![E, 1]⟩ ⟨2, ![E, J]⟩ [1] [0] [] [0] [] 1 ![1, J]) :
    GatherDims ⟨2, ![N, J]⟩ ⟨2, ![E, 1]⟩ ⟨2, ![E, J]⟩ where
  offsetDims := [1]
  collapsedSliceDims := [0]
  operandBatchingDims := []
  startIndicesBatchingDims := []
  startIndexMap := [0]
  indexVectorDim := 1
  sliceSizes := ![1, J]
  wf := wf

/-- The gathered table at (e, j) is the table at (clamped start index of e, j). -/
theorem gatherRows_apply {α : Type} {N J E w : Nat} (hN : 0 < N)
    (wf : GatherDims.WF ⟨2, ![N, J]⟩ ⟨2, ![E, 1]⟩ ⟨2, ![E, J]⟩ [1] [0] [] [0] [] 1 ![1, J])
    (x : (⟨2, ![N, J]⟩ : Shape).Idx → α) (idx : IVec ⟨2, ![E, 1]⟩ w) (e : Fin E) (j : Fin J) :
    Host.gather (rowsGather N J E wf) x idx (ix2 e j) = x (ix2 (clampIdx N hN (idx (ix2 e (0 : Fin 1)))) j) := by
  -- the row coordinate: the clamped start index, no batch and no offset part
  have h0 : (rowsGather N J E wf).start (ix2 e j) idx (0 : Fin 2) + (rowsGather N J E wf).batchCoord (ix2 e j) (0 : Fin 2)
      + (rowsGather N J E wf).offCoord (ix2 e j) (0 : Fin 2) = (clampIdx N hN (idx (ix2 e (0 : Fin 1)))).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsGather N J E wf).startIndexMap from List.mem_singleton.mpr rfl)]
    have hsi : (rowsGather N J E wf).siIdx (ix2 e j) ⟨List.idxOf (0 : Fin 2) (rowsGather N J E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start, no batch part, the result's own column
  have h1 : (rowsGather N J E wf).start (ix2 e j) idx (1 : Fin 2) + (rowsGather N J E wf).batchCoord (ix2 e j) (1 : Fin 2)
      + (rowsGather N J E wf).offCoord (ix2 e j) (1 : Fin 2) = j.val := by
    have hs : (rowsGather N J E wf).start (ix2 e j) idx (1 : Fin 2) = 0 := by
      unfold GatherDims.start
      exact dif_neg (show ¬ (1 : Fin 2) ∈ ([0] : List (Fin 2)) by decide)
    have hk : (1 : Fin 2) ∈ (rowsGather N J E wf).sKept :=
      (GatherDims.mem_sKept _ _).mpr ⟨(show ¬ (1 : Fin 2) ∈ ([0] : List (Fin 2)) by decide), List.not_mem_nil⟩
    rw [hs, GatherDims.batchCoord_eq_zero _ _ _ List.not_mem_nil, Nat.add_zero, Nat.zero_add]
    unfold GatherDims.offCoord
    rw [dif_pos hk]
    rfl
  unfold Host.gather
  refine congrArg x (funext fun a => Fin.ext ?_)
  match a with
  | ⟨0, _⟩ => exact h0
  | ⟨1, _⟩ => exact h1

/-- The dimension numbers of x[idx] for a vector [N] and a column [E, 1] of start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at e is the vector at the clamped start index of e. -/
theorem gatherVec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampIdx N hN (idx (ix2 e (0 : Fin 1))))) := by
  unfold Host.gather
  refine congrArg x (funext fun a => Fin.ext ?_)
  obtain rfl : a = 0 := Subsingleton.elim _ _
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter-adds of rows -/

/-- The dimension numbers of .at[idx].add(u) for a table [N, J], a column [E, 1] of indices and updates [E, J]. -/
abbrev rowsScatter (N J E : Nat) (wf : ScatterDims.WF ⟨2, ![N, J]⟩ ⟨2, ![E, 1]⟩ ⟨2, ![E, J]⟩ [1] [0] [0] 1) :
    ScatterDims ⟨2, ![N, J]⟩ ⟨2, ![E, 1]⟩ ⟨2, ![E, J]⟩ where
  updateWindowDims := [1]
  insertedWindowDims := [0]
  scatterDimsToOperandDims := [0]
  indexVectorDim := 1
  wf := wf

/-- An update that lands on row d comes from an edge whose index, read signed, is d: it is not negative and its
    value is d. -/
theorem scatterRows_landed {N J E w : Nat} (wf : ScatterDims.WF ⟨2, ![N, J]⟩ ⟨2, ![E, 1]⟩ ⟨2, ![E, J]⟩ [1] [0] [0] 1)
    (idx : IVec ⟨2, ![E, 1]⟩ w) (u : (⟨2, ![E, J]⟩ : Shape).Idx) (i : (⟨2, ![N, J]⟩ : Shape).Idx)
    (h : (rowsScatter N J E wf).resultIdx? u idx = some i) :
    (idx (ix2 (u 0) (0 : Fin 1))).toInt = ((i 0).val : Int) := by
  unfold ScatterDims.resultIdx? at h
  split at h
  · rename_i hall
    have hi := congrFun (Option.some.inj h) 0
    have hv : ((rowsScatter N J E wf).start u idx 0 + (rowsScatter N J E wf).window u 0).toNat = (i 0).val :=
      congrArg Fin.val hi
    have hw : (rowsScatter N J E wf).window u (0 : Fin 2) = 0 := by
      unfold ScatterDims.window
      exact dif_neg (show ¬ (0 : Fin 2) ∈ (rowsScatter N J E wf).sKept by
        simp [ScatterDims.sKept, Shape.kept, List.mem_filter, List.mem_finRange])
    have hst : (rowsScatter N J E wf).start u idx (0 : Fin 2) = (idx (ix2 (u 0) (0 : Fin 1))).toInt := by
      unfold ScatterDims.start
      rw [dif_pos (show (0 : Fin 2) ∈ (rowsScatter N J E wf).scatterDimsToOperandDims from List.mem_singleton.mpr rfl)]
      have hsi : (rowsScatter N J E wf).siIdx u ⟨List.idxOf (0 : Fin 2) (rowsScatter N J E wf).scatterDimsToOperandDims,
          List.idxOf_lt_length_iff.2 (List.mem_singleton.mpr rfl)⟩ = ix2 (u 0) (0 : Fin 1) := by
        funext b; refine Fin.ext ?_
        match b with
        | ⟨0, _⟩ => rfl
        | ⟨1, _⟩ => rfl
      rw [hsi]
      rfl
    have hnn : 0 ≤ (rowsScatter N J E wf).start u idx 0 + (((rowsScatter N J E wf).window u 0 : Nat) : Int) := (hall 0).1
    rw [hw, hst] at hv hnn
    simp only [Nat.cast_zero, add_zero] at hv hnn
    omega
  · exact absurd h (by simp)

/-! ## A factor that leaves a sum -/

/-- A non-negative real factor leaves a finite sum of extended reals. -/
theorem sum_mul_of_nonneg_ne_top {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- THE LAW.  Two scatter-adds into zero tables at the same indices.  If at every update that lands on a row the
    second scatter's update is the first's times a factor c(row), and c(row) is a non-negative real, then at every
    entry the first scatter's sum times c(row) is the second's sum. -/
theorem scatterAdd_rescale {N J E w : Nat} (wf : ScatterDims.WF ⟨2, ![N, J]⟩ ⟨2, ![E, 1]⟩ ⟨2, ![E, J]⟩ [1] [0] [0] 1)
    (z : FVec Ideal ⟨2, ![N, J]⟩ .f32) (hz : ∀ i, z i = 0) (idx : IVec ⟨2, ![E, 1]⟩ w)
    (u₁ u₂ : FVec Ideal ⟨2, ![E, J]⟩ .f32) (c : Fin N → EReal) (h0 : ∀ n, 0 ≤ c n) (ht : ∀ n, c n ≠ ⊤)
    (hu : ∀ (u : (⟨2, ![E, J]⟩ : Shape).Idx) (i : (⟨2, ![N, J]⟩ : Shape).Idx),
      (rowsScatter N J E wf).resultIdx? u idx = some i → u₂ u = u₁ u * c (i 0))
    (i : (⟨2, ![N, J]⟩ : Shape).Idx) :
    Host.scatterAdd (F := Ideal) (rowsScatter N J E wf) z idx u₁ i * c (i 0)
      = Host.scatterAdd (F := Ideal) (rowsScatter N J E wf) z idx u₂ i := by
  simp only [Host.scatterAdd, Ideal.hostScatterAdd_def, Ideal.hostScatterAdd]
  rw [hz i, zero_add, zero_add]
  refine (sum_mul_of_nonneg_ne_top _ _ (c (i 0)) (h0 _) (ht _)).trans ?_
  refine Finset.sum_congr rfl fun u hu' => ?_
  exact (hu u i (Finset.mem_filter.mp hu').2).symm

/-! ## The inverse square root of a degree, guarded -/

/-- where(x > 0, rsqrt x, 0) on the extended reals is a non-negative real number, whatever x is: the inverse root of a
    positive real, 0 at +∞ (rsqrt's value there), and 0 where the guard fails. -/
theorem guardedRsqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  induction x using EReal.rec with
  | bot => simp [Scalar.select, Ideal.cmp]
  | top =>
    have hr : Ideal.rsqrt (⊤ : EReal) = 0 := rfl
    simp [Scalar.select, Ideal.cmp, hr]
  | coe r =>
    by_cases h : 0 < r
    · have h1 : ¬ r < 0 := not_lt.mpr h.le
      have h2 : r ≠ 0 := h.ne'
      have hc : Ideal.cmp .ogt (r : EReal) 0 = 1#1 := by simp [Ideal.cmp, h]
      have hr : Ideal.rsqrt (r : EReal) = (((Real.sqrt r)⁻¹ : ℝ) : EReal) := by
        show (if r < 0 then (⊥ : EReal) else if r = 0 then ⊤ else (((Real.sqrt r)⁻¹ : ℝ) : EReal)) = _
        rw [if_neg h1, if_neg h2]
      rw [hc, show Scalar.select 1#1 (Ideal.rsqrt (r : EReal)) (0 : EReal) = Ideal.rsqrt (r : EReal) from if_pos rfl, hr]
      exact ⟨by exact_mod_cast inv_nonneg.mpr (Real.sqrt_nonneg r), EReal.coe_ne_top _⟩
    · have hc : Ideal.cmp .ogt (r : EReal) 0 = 0#1 := by simp [Ideal.cmp, h]
      rw [hc, show Scalar.select 0#1 (Ideal.rsqrt (r : EReal)) (0 : EReal) = 0 from if_neg (by decide)]
      exact ⟨le_refl _, EReal.zero_ne_top⟩

/-! ## A negative index wrapped, where the index is not negative -/

/-- where(v < 0, a, v) is v for an index word v that is not negative as a signed integer, whatever a is (in the
    programs a is v + n, the index wrapped from the end). -/
theorem wrapIdx_of_nonneg {w : Nat} (v a z : BitVec w) (hz : z = 0#w) (h : 0 ≤ v.toInt) :
    Scalar.select (IntOp.cmpi .slt v z) a v = v := by
  subst hz
  have : IntOp.cmpi .slt v 0#w = 0#1 := by
    simp only [IntOp.cmpi, BitVec.slt, BitVec.toInt_zero]
    simp [not_lt.mpr h]
  rw [this]
  exact if_neg (by decide)

/-! ## A row's maximum on the host -/

/-- The host's reduction with a maximum body along the columns of an [R, C] matrix, at row p: the fold of max, from the
    initial value, over the columns of that row's entries. -/
theorem hostRowMax_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x _ h' h hu]
  exact congrArg (fun f => Finset.fold max (init (Shape.Idx.first hu)) f (Finset.univ : Finset (Fin C)))
    (funext fun k => congrArg x (funext fun d => Fin.ext (by
      match d with
      | ⟨0, _⟩ => rfl
      | ⟨1, _⟩ => rfl)))

end Cert.LibGraph

end
-- ==== Proof.RefSide.lean ====
/-
  The reference's result, entry by entry, is the specification's `result` of the five arguments.

  Each stage of the reference's straight-line program is read at explicit coordinates through the generated
  read-at-an-index lemmas: the two projections as row-times-matrix sums, the two floored lengths, the two unit rows,
  the similarities as inner products of unit rows, the straight-through rounding s + (binned s - s), which is binned s
  because s is a real number (this is where the inputs' finiteness is used), the row maximum as a fold of max (the
  reference takes one more max with -∞, which changes nothing), the exponentials, their sum, the weights, and the last
  product with the value rows.
-/
import proofs.«152052_j82102594830987_2_alg».proof.Proof.Gen.ReferenceIdeal.Read
import proofs.«152052_j82102594830987_2_alg».proof.Proof.Spec
import proofs.«152052_j82102594830987_2_alg».proof.Proof.LibGraphOps

noncomputable section

open scoped BigOperators

namespace Cert.RefSide

open Cert.ReferenceIdeal Cert.ReferenceIdeal.Gen Cert.ReferenceIdeal.Read Idealize.ShloMosaic Idealize.ShloMosaic.ValueIdx Cert.Attn Cert.LibRealSum

/-! ## The generated index functions at explicit coordinates -/

theorem lidx_v0 (b : Fin 16384) (h k : Fin 512) : lidx_main_v0 (ix2 b h) k = ix2 b k := eq_ix2 _
theorem ridx_v0 (b : Fin 16384) (h k : Fin 512) : ridx_main_v0 (ix2 b h) k = ix2 k h := eq_ix2 _
theorem lidx_v1 (a : Fin 4096) (h k : Fin 512) : lidx_main_v1 (ix2 a h) k = ix2 a k := eq_ix2 _
theorem ridx_v1 (a : Fin 4096) (h k : Fin 512) : ridx_main_v1 (ix2 a h) k = ix2 k h := eq_ix2 _
theorem idx_c0v1 (b : Fin 16384) (k : Fin 512) : idx_main_call0_v1 (ix1 b) k = ix2 b k := eq_ix2 _
theorem idx_c0v2 (b : Fin 16384) (u : Fin 1) : idx_main_call0_v2 (ix2 b u) = ix1 b := eq_ix1 _
theorem idx_v5 (b : Fin 16384) (h : Fin 512) : idx_main_v5 (ix2 b h) = ix2 b (0 : Fin 1) := eq_ix2 _
theorem idx_c1v1 (a : Fin 4096) (k : Fin 512) : idx_main_call1_v1 (ix1 a) k = ix2 a k := eq_ix2 _
theorem idx_c1v2 (a : Fin 4096) (u : Fin 1) : idx_main_call1_v2 (ix2 a u) = ix1 a := eq_ix1 _
theorem idx_v10 (a : Fin 4096) (h : Fin 512) : idx_main_v10 (ix2 a h) = ix2 a (0 : Fin 1) := eq_ix2 _
theorem lidx_v12 (b : Fin 16384) (a : Fin 4096) (k : Fin 512) : lidx_main_v12 (ix2 b a) k = ix2 b k := eq_ix2 _
theorem ridx_v12 (b : Fin 16384) (a : Fin 4096) (k : Fin 512) : ridx_main_v12 (ix2 b a) k = ix2 a k := eq_ix2 _
theorem idx_v23 (b : Fin 16384) (u : Fin 1) : idx_main_v23 (ix2 b u) = ix1 b := eq_ix1 _
theorem idx_v24 (b : Fin 16384) (a : Fin 4096) : idx_main_v24 (ix2 b a) = ix2 b (0 : Fin 1) := eq_ix2 _
theorem idx_v27 (b : Fin 16384) (k : Fin 4096) : idx_main_v27 (ix1 b) k = ix2 b k := eq_ix2 _
theorem idx_v28 (b : Fin 16384) (u : Fin 1) : idx_main_v28 (ix2 b u) = ix1 b := eq_ix1 _
theorem idx_v29 (b : Fin 16384) (a : Fin 4096) : idx_main_v29 (ix2 b a) = ix2 b (0 : Fin 1) := eq_ix2 _
theorem lidx_v31 (b : Fin 16384) (h : Fin 512) (k : Fin 4096) : lidx_main_v31 (ix2 b h) k = ix2 b k := eq_ix2 _
theorem ridx_v31 (b : Fin 16384) (h : Fin 512) (k : Fin 4096) : ridx_main_v31 (ix2 b h) k = ix2 k h := eq_ix2 _

variable (x0 : (⟨S16384x512, .f32⟩ : BufTy).Contents (Elt Ideal)) (x1 : (⟨S4096x512, .f32⟩ : BufTy).Contents (Elt Ideal))
  (x2 x3 : (⟨S512x512, .f32⟩ : BufTy).Contents (Elt Ideal)) (x4 : (⟨S4096x512, .f32⟩ : BufTy).Contents (Elt Ideal))

/-! ## The query side: projection, floored length, unit row -/

theorem q_at (b : Fin 16384) (h : Fin 512) :
    val_main_v0 (F := Ideal) x0 x2 (ix2 b h) = rowMat (row x0 b) (mat x2) h := by
  rw [val_main_v0_apply]
  simp only [lidx_v0, ridx_v0]
  rfl

theorem qlen_at (b : Fin 16384) (u : Fin 1) :
    val_main_v4 (F := Ideal) x0 x2 (ix2 b u) = len (rowMat (row x0 b) (mat x2)) := by
  rw [val_main_v4_apply, val_main_v2_apply, val_main_call0_v2_apply, idx_c0v2, val_main_call0_v1_apply, val_main_v3_apply,
    val_main_cst_apply, val_main_call0_cst_apply]
  simp only [idx_c0v1, val_main_call0_v0_apply, q_at, Ideal.hostUnary_sqrt_def, Ideal.maximumf_def, Ideal.mulf_def,
    Ideal.ofBits_def, zero_word, zero_add]
  rfl

theorem qn_at (b : Fin 16384) (h : Fin 512) :
    val_main_v6 (F := Ideal) x0 x2 (ix2 b h) = unit (rowMat (row x0 b) (mat x2)) h := by
  rw [val_main_v6_apply, val_main_v5_apply, idx_v5, qlen_at, q_at, Ideal.hostDivf_def]
  rfl

/-! ## The key side: the same three stages on the anchors -/

theorem k_at (a : Fin 4096) (h : Fin 512) :
    val_main_v1 (F := Ideal) x1 x3 (ix2 a h) = rowMat (row x1 a) (mat x3) h := by
  rw [val_main_v1_apply]
  simp only [lidx_v1, ridx_v1]
  rfl

theorem klen_at (a : Fin 4096) (u : Fin 1) :
    val_main_v9 (F := Ideal) x1 x3 (ix2 a u) = len (rowMat (row x1 a) (mat x3)) := by
  rw [val_main_v9_apply, val_main_v7_apply, val_main_call1_v2_apply, idx_c1v2, val_main_call1_v1_apply, val_main_v8_apply,
    val_main_cst_0_apply, val_main_call1_cst_apply]
  simp only [idx_c1v1, val_main_call1_v0_apply, k_at, Ideal.hostUnary_sqrt_def, Ideal.maximumf_def, Ideal.mulf_def,
    Ideal.ofBits_def, zero_word, zero_add]
  rfl

theorem kn_at (a : Fin 4096) (h : Fin 512) :
    val_main_v11 (F := Ideal) x1 x3 (ix2 a h) = keyRows x1 x3 a h := by
  rw [val_main_v11_apply, val_main_v10_apply, idx_v10, klen_at, k_at, Ideal.hostDivf_def]
  rfl

/-! ## The similarities -/

theorem sim_at (b : Fin 16384) (a : Fin 4096) :
    val_main_v12 (F := Ideal) x0 x1 x2 x3 (ix2 b a) = sims (unit (rowMat (row x0 b) (mat x2))) (keyRows x1 x3) a := by
  rw [val_main_v12_apply]
  simp only [lidx_v12, ridx_v12, qn_at, kn_at]
  rfl

/-! ## The binned similarity: the straight-through form collapses because a similarity is real -/

/-- A unit key row is real. -/
theorem isReal_keyRows (h1 : ∀ i, IsReal (x1 i)) (h3 : ∀ i, IsReal (x3 i)) (a : Fin 4096) (h : Fin 512) :
    IsReal (keyRows x1 x3 a h) :=
  isReal_unit (fun h' => isReal_rowMat (fun d => h1 _) (fun d h'' => h3 _) h') h

/-- A similarity is real. -/
theorem isReal_sim (h0 : ∀ i, IsReal (x0 i)) (h1 : ∀ i, IsReal (x1 i)) (h2 : ∀ i, IsReal (x2 i)) (h3 : ∀ i, IsReal (x3 i)) (b : Fin 16384) (a : Fin 4096) :
    IsReal (sims (unit (rowMat (row x0 b) (mat x2))) (keyRows x1 x3) a) :=
  isReal_sims (fun h => isReal_unit (fun h' => isReal_rowMat (fun d => h0 _) (fun d h'' => h2 _) h') h)
    (fun a' h => isReal_keyRows x1 x3 h1 h3 a' h) a

/-- The scores of query row b: the binned similarities. -/
def scores (b : Fin 16384) : Fin 4096 → EReal :=
  fun a => binned (sims (unit (rowMat (row x0 b) (mat x2))) (keyRows x1 x3) a)

theorem score_at (h0 : ∀ i, IsReal (x0 i)) (h1 : ∀ i, IsReal (x1 i)) (h2 : ∀ i, IsReal (x2 i)) (h3 : ∀ i, IsReal (x3 i)) (b : Fin 16384) (a : Fin 4096) :
    val_main_v19 (F := Ideal) x0 x1 x2 x3 (ix2 b a) = scores x0 x1 x2 x3 b a := by
  rw [val_main_v19_apply, val_main_v18_apply, val_main_v17_apply, val_main_v15_apply, val_main_v14_apply, val_main_v13_apply,
    val_main_v16_apply, val_main_cst_1_apply, val_main_cst_2_apply, sim_at]
  simp only [Ideal.addf_def, Ideal.subf_def, Ideal.mulf_def, Ideal.hostDivf_def, Ideal.hostUnary_roundeven_def, Ideal.ofBits_def]
  exact add_sub_cancel_real (isReal_sim x0 x1 x2 x3 h0 h1 h2 h3 b a) _

/-! ## The row maximum -/

theorem top_at (h0 : ∀ i, IsReal (x0 i)) (h1 : ∀ i, IsReal (x1 i)) (h2 : ∀ i, IsReal (x2 i)) (h3 : ∀ i, IsReal (x3 i)) (b : Fin 16384) :
    val_main_v22 (F := Ideal) x0 x1 x2 x3 (ix1 b) = top (scores x0 x1 x2 x3 b) := by
  rw [val_main_v22_apply, val_main_v21_apply, val_main_cst_4_apply]
  unfold val_main_v20
  rw [Cert.LibGraph.hostRowMax_apply (val_main_v19 (F := Ideal) x0 x1 x2 x3) (val_main_cst_3 (F := Ideal))
    reducesTo_S16384x4096_S16384_d1 (by decide) h_S_ b, val_main_cst_3_apply]
  simp only [score_at x0 x1 x2 x3 h0 h1 h2 h3, Ideal.maximumf_def, Ideal.ofBits_def]
  exact max_eq_right ((Finset.le_fold_max _).mpr (Or.inl le_rfl))

/-! ## Exponentials, their sum, the weights, the output -/

theorem ex_at (h0 : ∀ i, IsReal (x0 i)) (h1 : ∀ i, IsReal (x1 i)) (h2 : ∀ i, IsReal (x2 i)) (h3 : ∀ i, IsReal (x3 i)) (b : Fin 16384) (a : Fin 4096) :
    val_main_v26 (F := Ideal) x0 x1 x2 x3 (ix2 b a) = ex (scores x0 x1 x2 x3 b) a := by
  rw [val_main_v26_apply, val_main_v25_apply, val_main_v24_apply, idx_v24, val_main_v23_apply, idx_v23,
    top_at x0 x1 x2 x3 h0 h1 h2 h3, score_at x0 x1 x2 x3 h0 h1 h2 h3, Ideal.hostUnary_exp_def, Ideal.subf_def]
  rfl

theorem den_at (h0 : ∀ i, IsReal (x0 i)) (h1 : ∀ i, IsReal (x1 i)) (h2 : ∀ i, IsReal (x2 i)) (h3 : ∀ i, IsReal (x3 i)) (b : Fin 16384) (a : Fin 4096) :
    val_main_v29 (F := Ideal) x0 x1 x2 x3 (ix2 b a) = ∑ a' : Fin 4096, ex (scores x0 x1 x2 x3 b) a' := by
  rw [val_main_v29_apply, idx_v29, val_main_v28_apply, idx_v28, val_main_v27_apply, val_main_cst_5_apply]
  simp only [idx_v27, ex_at x0 x1 x2 x3 h0 h1 h2 h3, Ideal.ofBits_def, zero_word, zero_add]

theorem weight_at (h0 : ∀ i, IsReal (x0 i)) (h1 : ∀ i, IsReal (x1 i)) (h2 : ∀ i, IsReal (x2 i)) (h3 : ∀ i, IsReal (x3 i)) (b : Fin 16384) (a : Fin 4096) :
    val_main_v30 (F := Ideal) x0 x1 x2 x3 (ix2 b a) = weight (scores x0 x1 x2 x3 b) a := by
  rw [val_main_v30_apply, ex_at x0 x1 x2 x3 h0 h1 h2 h3, den_at x0 x1 x2 x3 h0 h1 h2 h3, Ideal.hostDivf_def]
  rfl

/-- THE REFERENCE'S RESULT at entry (b, h): the specification's. -/
theorem out_at (h0 : ∀ i, IsReal (x0 i)) (h1 : ∀ i, IsReal (x1 i)) (h2 : ∀ i, IsReal (x2 i)) (h3 : ∀ i, IsReal (x3 i)) (b : Fin 16384) (h : Fin 512) :
    val_main_v31 (F := Ideal) x0 x1 x2 x3 x4 (ix2 b h) = result x0 x1 x2 x3 x4 (ix2 b h) := by
  rw [val_main_v31_apply]
  simp only [lidx_v31, ridx_v31, weight_at x0 x1 x2 x3 h0 h1 h2 h3]
  rfl

/-- The reference's result array IS the specification's. -/
theorem out_eq (h0 : ∀ i, IsReal (x0 i)) (h1 : ∀ i, IsReal (x1 i)) (h2 : ∀ i, IsReal (x2 i)) (h3 : ∀ i, IsReal (x3 i)) : val_main_v31 (F := Ideal) x0 x1 x2 x3 x4 = result x0 x1 x2 x3 x4 :=
  funext fun i => by rw [eq_ix2 i]; exact out_at x0 x1 x2 x3 x4 h0 h1 h2 h3 _ _

end Cert.RefSide

end
-- ==== Proof.Finite.lean ====
/-
  The precondition, read: every entry of the four arrays the similarities are made from is a real number.

  The precondition's function is the conjunction, over the five arguments, of "every |x| is below +∞".  A conjunction
  of one-bit words that is 1 has every conjunct 1; a reduction by "and" that is 1 had a 1 at every element; and
  |x| < +∞ on the extended reals leaves out exactly +∞ and -∞.
-/
import proofs.«152052_j82102594830987_2_alg».proof.Pre_finite_inputs
import proofs.«152052_j82102594830987_2_alg».proof.Proof.Gen.Pre_finite_inputs
import proofs.«152052_j82102594830987_2_alg».proof.Proof.LibRealSum
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.LibRealSum Cert.Pre_finite_inputs

instance : Subsingleton S_.Idx := ⟨fun a b => funext fun d => d.elim0⟩

/-- The word of +∞ denotes the greatest extended real. -/
theorem posInf_word : Ideal.ofBits .f32 0x7F800000#32 = ⊤ := by simp [Ideal.ofBits, Ideal.ieee]

/-- An extended real whose absolute value compares below +∞ is a real number. -/
theorem isReal_of_abs_lt (x : EReal)
    (h : FloatOps.cmpf (F := Ideal) (φ := .f32) .olt (FloatOps.hostAbsf (F := Ideal) (φ := .f32) x)
      (FloatOps.ofBits (F := Ideal) .f32 0x7F800000#32) = 1#1) : IsReal x := by
  induction x using EReal.rec with
  | bot =>
    exfalso
    simp [Ideal.cmpf_def, Ideal.absf_def, Ideal.cmp, posInf_word] at h
  | top =>
    exfalso
    simp [Ideal.cmpf_def, Ideal.absf_def, Ideal.cmp, posInf_word] at h
  | coe r => exact ⟨r, rfl⟩

/-- From the precondition: every entry of the queries, the anchors, W_q and W_k is a real number. -/
theorem real_of_pre [Cert.Pre_finite_inputs.Facts] (a0 : FVec Ideal S16384x512 .f32) (a1 : FVec Ideal S4096x512 .f32)
    (a2 a3 : FVec Ideal S512x512 .f32) (a4 : FVec Ideal S4096x512 .f32)
    (h : fn (F := Ideal) a0 a1 a2 a3 a4 = fun _ => 1#1) :
    (∀ i, IsReal (a0 i)) ∧ (∀ i, IsReal (a1 i)) ∧ (∀ i, IsReal (a2 i)) ∧ (∀ i, IsReal (a3 i)) := by
  have h0 : fn (F := Ideal) a0 a1 a2 a3 a4 ValueIdx.ix0 = 1#1 := congrFun h ValueIdx.ix0
  dsimp only [fn, fn_part1] at h0
  obtain ⟨h18, -⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  exact ⟨fun i => isReal_of_abs_lt _ (Host.reduce_andi_all _ _ _ _ _ h3 i),
    fun i => isReal_of_abs_lt _ (Host.reduce_andi_all _ _ _ _ _ h7 i),
    fun i => isReal_of_abs_lt _ (Host.reduce_andi_all _ _ _ _ _ h12 i),
    fun i => isReal_of_abs_lt _ (Host.reduce_andi_all _ _ _ _ _ h17 i)⟩

end Cert.Finite

end
-- ==== Proof.lean ====
/-
  The five claims about the attention kernel and its reference.

  Both programs compute, for every query row, the same function of the five arguments on the extended reals: the row
  is multiplied by W_q and divided by its floored length, compared by inner products with the anchors' rows (each
  multiplied by W_k and divided by its floored length), every similarity moved to the nearest multiple of the bin
  width, the binned row turned into softmax weights, and the weights applied to the value rows.  The kernel does it in
  two passes over row blocks (the unit key rows first, then 128 query rows at a time), with products into a zero
  accumulator and sums along the lanes, which at exact values are the reference's contractions and sums; a change of
  float format is the identity there.  The one difference is the reference's straight-through rounding
  s + (binned s - s): it is binned s because s is a real number, which is where the finiteness of the queries, the
  anchors and the two weight matrices is used (the values may be anything).

  The frames of the two kernel programs are the generated ones; the reference's is its generated run with the result
  dropped; the idealization rewrote nothing, so it preserves the kernel trivially.
-/
import proofs.«152052_j82102594830987_2_alg».proof.Defs
import proofs.«152052_j82102594830987_2_alg».proof.Proof.Gen.Kernel
import proofs.«152052_j82102594830987_2_alg».proof.Proof.Gen.Kernel.Skeleton
import proofs.«152052_j82102594830987_2_alg».proof.Proof.Gen.Kernel.Launch
import proofs.«152052_j82102594830987_2_alg».proof.Proof.Gen.Kernel.Points
import proofs.«152052_j82102594830987_2_alg».proof.Proof.Gen.Kernel.Frame
import proofs.«152052_j82102594830987_2_alg».proof.Proof.Gen.KernelIdeal
import proofs.«152052_j82102594830987_2_alg».proof.Proof.Gen.KernelIdeal.Skeleton
import proofs.«152052_j82102594830987_2_alg».proof.Proof.Gen.KernelIdeal.Launch
import proofs.«152052_j82102594830987_2_alg».proof.Proof.Gen.KernelIdeal.Points
import proofs.«152052_j82102594830987_2_alg».proof.Proof.Gen.KernelIdeal.Frame
import proofs.«152052_j82102594830987_2_alg».proof.Proof.Gen.ReferenceIdeal
import proofs.«152052_j82102594830987_2_alg».proof.Proof.Gen.ReferenceIdeal.Run
import proofs.«152052_j82102594830987_2_alg».proof.Proof.Gen.ReferenceIdeal.Read
import proofs.«152052_j82102594830987_2_alg».proof.Proof.Gen.Pre_finite_inputs
import proofs.«152052_j82102594830987_2_alg».proof.Proof.KernelValue
import proofs.«152052_j82102594830987_2_alg».proof.Proof.RefSide
import proofs.«152052_j82102594830987_2_alg».proof.Proof.Finite
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, the idealized kernel and the idealized reference both end with the
    result buffer at the specification's result of the arguments. -/
theorem algebraic : Cert.algebraic_KernelIdeal_ReferenceIdeal := by
  intro m ρ m' ρ' hpre hagree
  refine ⟨fun c => Cert.Attn.result (B := 16384) (D := 512) (H := 512) (A := 4096) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelSide.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3⟩ := Cert.Finite.real_of_pre _ _ _ _ _ (hpre c)
  obtain ⟨a0, a1, a2, a3, a4⟩ := hagree c
  rw [Cert.ReferenceIdeal.Read.val_main_v31_eq, a0, a1, a2, a3, a4]
  exact Cert.RefSide.out_eq _ _ _ _ _ r0 r1 r2 r3

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
